-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.sign_bit.Statement Cert.KernelIdeal.S256x768 .f32
  ∧ IdealRules.sign_bit.Statement Cert.KernelIdeal.S256x3072 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1x1x1 : Shape := ⟨3, ![1, 1, 1]⟩
abbrev S1 : Shape := ⟨1, ![1]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_
  bcast_S_S1x1x1 : S_.BroadcastsInDim S1x1x1 (![] : Fin 0 → Fin S1x1x1.rank)
  reducesTo_S1x1x1_S_d0_1_2 : S1x1x1.ReducesTo [0, 1, 2] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x1x1 .f32) (main_arg8 : FVec F S1x1x1 .f32) (main_arg9 : FVec F S1 .f32) (main_v33 : IVec S_ 1) : IVec S_ 1 :=
  let main_v34 : FVec F S1x1x1 .f32 := Host.absf main_arg7
  let main_cst_12 : FVec F S_ .f32 := constant S_ .f32 0x7F800000#32
  let main_v35 : FVec F S1x1x1 .f32 := broadcastInDim S1x1x1 ![] bcast_S_S1x1x1 main_cst_12
  let main_v36 : IVec S1x1x1 1 := cmpf .olt main_v34 main_v35
  let main_c_13 : IVec S_ 1 := constantI S_ 1 1#1
  let main_v37 : IVec S_ 1 := (fun x v => Host.reduce IntOp.andi x v reducesTo_S1x1x1_S_d0_1_2 h_S_) main_v36 main_c_13
  let main_v38 : IVec S_ 1 := andi main_v33 main_v37
  let main_v39 : FVec F S1x1x1 .f32 := Host.absf main_arg8
  let main_cst_14 : FVec F S_ .f32 := constant S_ .f32 0x7F800000#32
  let main_v40 : FVec F S1x1x1 .f32 := broadcastInDim S1x1x1 ![] bcast_S_S1x1x1 main_cst_14
  let main_v41 : IVec S1x1x1 1 := cmpf .olt main_v39 main_v40
  let main_c_15 : IVec S_ 1 := constantI S_ 1 1#1
  let main_v42 : IVec S_ 1 := (fun x v => Host.reduce IntOp.andi x v reducesTo_S1x1x1_S_d0_1_2 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S768 .f32) (main_arg5 : FVec F S1x1x1 .f32) (main_arg6 : FVec F S1x1x1 .f32) (main_arg7 : FVec F S1x1x1 .f32) (main_arg8 : FVec F S1x1x1 .f32) (main_arg9 : FVec F S1 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1x1x1 .f32 := Host.absf main_arg5
  let main_cst_8 : FVec F S_ .f32 := constant S_ .f32 0x7F800000#32
  let main_v25 : FVec F S1x1x1 .f32 := broadcastInDim S1x1x1 ![] bcast_S_S1x1x1 main_cst_8
  let main_v26 : IVec S1x1x1 1 := cmpf .olt main_v24 main_v25
  let main_c_9 : IVec S_ 1 := constantI S_ 1 1#1
  let main_v27 : IVec S_ 1 := (fun x v => Host.reduce IntOp.andi x v reducesTo_S1x1x1_S_d0_1_2 h_S_) main_v26 main_c_9
  let main_v28 : IVec S_ 1 := andi main_v23 main_v27
  let main_v29 : FVec F S1x1x1 .f32 := Host.absf main_arg6
  let main_cst_10 : FVec F S_ .f32 := constant S_ .f32 0x7F800000#32
  let main_v30 : FVec F S1x1x1 .f32 := broadcastInDim S1x1x1 ![] bcast_S_S1x1x1 main_cst_10
  let main_v31 : IVec S1x1x1 1 := cmpf .olt main_v29 main_v30
  let main_c_11 : IVec S_ 1 := constantI S_ 1 1#1
  let main_v32 : IVec S_ 1 := (fun x v => Host.reduce IntOp.andi x v reducesTo_S1x1x1_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S64x197x768 .f32) (main_arg1 : FVec F S3072x768 .f32) (main_arg2 : FVec F S3072 .f32) (main_arg3 : FVec F S768x3072 .f32) (main_arg4 : FVec F S768 .f32) (main_arg5 : FVec F S1x1x1 .f32) (main_arg6 : FVec F S1x1x1 .f32) (main_arg7 : FVec F S1x1x1 .f32) (main_arg8 : FVec F S1x1x1 .f32) (main_arg9 : FVec F S1 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg4 main_arg5 main_arg6 main_arg7 main_arg8 main_arg9 main_v13 main_v16
-- ==== Kernel.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1x1x1 : Shape := ⟨3, ![1, 1, 1]⟩
abbrev S1 : Shape := ⟨1, ![1]⟩
abbrev S12608x768 : Shape := ⟨2, ![12608, 768]⟩
abbrev S_ : Shape := ⟨0, ![]⟩
abbrev S3072x1 : Shape := ⟨2, ![3072, 1]⟩
abbrev S768x1 : Shape := ⟨2, ![768, 1]⟩
abbrev S1x3072 : Shape := ⟨2, ![1, 3072]⟩
abbrev S1x768 : Shape := ⟨2, ![1, 768]⟩
abbrev S1x1 : Shape := ⟨2, ![1, 1]⟩
abbrev S256x768 : Shape := ⟨2, ![256, 768]⟩
abbrev S256x3072 : Shape := ⟨2, ![256, 3072]⟩

abbrev nBuf : Space → Nat
  | .hbm => 61
  | .vmem => 13
  | .smem => 0
  | _ => 0

abbrev bufTy : (tb : Table) → Fin (tcTables nBuf tb) → BufTy
  | .hbm, ⟨0, _⟩ => ⟨S64x197x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1x1x1, .f32⟩
  | .hbm, ⟨6, _⟩ => ⟨S1x1x1, .f32⟩
  | .hbm, ⟨7, _⟩ => ⟨S1x1x1, .f32⟩
  | .hbm, ⟨8, _⟩ => ⟨S1x1x1, .f32⟩
  | .hbm, ⟨9, _⟩ => ⟨S1, .f32⟩
  | .hbm, ⟨10, _⟩ => ⟨S12608x768, .f32⟩
  | .hbm, ⟨11, _⟩ => ⟨S3072x768, .f32⟩
  | .hbm, ⟨12, _⟩ => ⟨S_, .f32⟩
  | .hbm, ⟨13, _⟩ => ⟨S3072, .f32⟩
  | .hbm, ⟨14, _⟩ => ⟨S3072x1, .f32⟩
  | .hbm, ⟨15, _⟩ => ⟨S_, .f32⟩
  | .hbm, ⟨16, _⟩ => ⟨S3072x1, .f32⟩
  | .hbm, ⟨17, _⟩ => ⟨S3072x1, .f32⟩
  | .hbm, ⟨18, _⟩ => ⟨S_, .f32⟩
  | .hbm, ⟨19, _⟩ => ⟨S3072, .f32⟩
  | .hbm, ⟨20, _⟩ => ⟨S3072x1, .f32⟩
  | .hbm, ⟨21, _⟩ => ⟨S_, .f32⟩
  | .hbm, ⟨22, _⟩ => ⟨S3072x1, .f32⟩
  | .hbm, ⟨23, _⟩ => ⟨S3072x1, .f32⟩
  | .hbm, ⟨24, _⟩ => ⟨S3072x768, .f32⟩
  | .hbm, ⟨25, _⟩ => ⟨S3072x768, .f32⟩
  | .hbm, ⟨26, _⟩ => ⟨S3072x768, .f32⟩
  | .hbm, ⟨27, _⟩ => ⟨S768x3072, .f32⟩
  | .hbm, ⟨28, _⟩ => ⟨S_, .f32⟩
  | .hbm, ⟨29, _⟩ => ⟨S768, .f32⟩
  | .hbm, ⟨30, _⟩ => ⟨S768x1, .f32⟩
  | .hbm, ⟨31, _⟩ => ⟨S_, .f32⟩
  | .hbm, ⟨32, _⟩ => ⟨S768x1, .f32⟩
  | .hbm, ⟨33, _⟩ => ⟨S768x1, .f32⟩
  | .hbm, ⟨34, _⟩ => ⟨S_, .f32⟩
  | .hbm, ⟨35, _⟩ => ⟨S768, .f32⟩
  | .hbm, ⟨36, _⟩ => ⟨S768x1, .f32⟩
  | .hbm, ⟨37, _⟩ => ⟨S_, .f32⟩
  | .hbm, ⟨38, _⟩ => ⟨S768x1, .f32⟩
  | .hbm, ⟨39, _⟩ => ⟨S768x1, .f32⟩
  | .hbm, ⟨40, _⟩ => ⟨S768x3072, .f32⟩
  | .hbm, ⟨41, _⟩ => ⟨S768x3072, .f32⟩
  | .hbm, ⟨42, _⟩ => ⟨S768x3072, .f32⟩
  | .hbm, ⟨43, _⟩ => ⟨S768x3072, .f32⟩
  | .hbm, ⟨44, _⟩ => ⟨S768x3072, .bf16⟩
  | .hbm, ⟨45, _⟩ => ⟨S3072x768, .f32⟩
  | .hbm, ⟨46, _⟩ => ⟨S3072x768, .bf16⟩
  | .hbm, ⟨47, _⟩ => ⟨S1x3072, .f32⟩
  | .hbm, ⟨48, _⟩ => ⟨S1x768, .f32⟩
  | .hbm, ⟨49, _⟩ => ⟨S1x3072, .f32⟩
  | .hbm, ⟨50, _⟩ => ⟨S1x1, .f32⟩
  | .hbm, ⟨51, _⟩ => ⟨S1x3072, .f32⟩
  | .hbm, ⟨52, _⟩ => ⟨S1x3072, .f32⟩
  | .hbm, ⟨53, _⟩ => ⟨S1x768, .f32⟩
  | .hbm, ⟨54, _⟩ => ⟨S1x1, .f32⟩
  | .hbm, ⟨55, _⟩ => ⟨S1x1, .f32⟩
  | .hbm, ⟨56, _⟩ => ⟨S1x1, .f32⟩
  | .hbm, ⟨57, _⟩ => ⟨S1x1, .f32⟩
  | .hbm, ⟨58, _⟩ => ⟨S1x1, .f32⟩
  | .hbm, ⟨59, _⟩ => ⟨S12608x768, .f32⟩
  | .hbm, ⟨60, _⟩ => ⟨S64x197x768, .f32⟩
  | .local _ .vmem, ⟨0, _⟩ => ⟨S256x768, .f32⟩
  | .local _ .vmem, ⟨1, _⟩ => ⟨S256x768, .f32⟩
  | .local _ .vmem, ⟨2, _⟩ => ⟨S768x3072, .bf16⟩
  | .local _ .vmem, ⟨3, _⟩ => ⟨S3072x768, .bf16⟩
  | .local _ .vmem, ⟨4, _⟩ => ⟨S1x3072, .f32⟩
  | .local _ .vmem, ⟨5, _⟩ => ⟨S1x768, .f32⟩
  | .local _ .vmem, ⟨6, _⟩ => ⟨S1x3072, .f32⟩
  | .local _ .vmem, ⟨7, _⟩ => ⟨S1x768, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S256x768, .f32⟩
  | .local _ .vmem, ⟨12, _⟩ => ⟨S256x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64x197x768_S12608x768 : S64x197x768.ShapeCasts S12608x768
  reducesTo_S3072x768_S3072_d1 : S3072x768.ReducesTo [1] S3072
  h_S_ : 0 < S_.numel
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S3072x1_S3072x768_0_1 : S3072x1.BroadcastsInDim S3072x768 (![0, 1] : Fin 2 → Fin S3072x768.rank)
  reducesTo_S768x3072_S768_d1 : S768x3072.ReducesTo [1] S768
  bcast_S768_S768x1_0 : S768.BroadcastsInDim S768x1 (![0] : Fin 1 → Fin S768x1.rank)
  bcast_S_S768x1 : S_.BroadcastsInDim S768x1 (![] : Fin 0 → Fin S768x1.rank)
  bcast_S768x1_S768x3072_0_1 : S768x1.BroadcastsInDim S768x3072 (![0, 1] : Fin 2 → Fin S768x3072.rank)
  transposes_S3072x768_S768x3072_1_0 : S3072x768.Transposes [1, 0] S768x3072
  bitsLt_bf16_f32 : FTy.bits .bf16 < FTy.bits .f32
  transposes_S768x3072_S3072x768_1_0 : S768x3072.Transposes [1, 0] S3072x768
  shapeCasts_S3072x1_S1x3072 : S3072x1.ShapeCasts S1x3072
  shapeCasts_S768x1_S1x768 : S768x1.ShapeCasts S1x768
  shapeCasts_S3072_S1x3072 : S3072.ShapeCasts S1x3072
  shapeCasts_S1x1x1_S1x1 : S1x1x1.ShapeCasts S1x1
  bcast_S1x1_S1x3072_0_1 : S1x1.BroadcastsInDim S1x3072 (![0, 1] : Fin 2 → Fin S1x3072.rank)
  shapeCasts_S768_S1x768 : S768.ShapeCasts S1x768
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S12608x768_S64x197x768 : S12608x768.ShapeCasts S64x197x768
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x768.size a < S12608x768.size a
  hwx0_0 : ∀ i : grid0.Coords, EltTy.bits .f32 = 32 ∨ (Rect.unit (s := S12608x768) (fun a => cc0_transform_0 i a * S256x768.size a) (fun a => (Pipeline.Clip.of (cc0_transform_0 i a) (S256x768.size a) (S12608x768.size a)).extent (S256x768.size a)) fun a => Pipeline.Clip.inb (Pipeline.Clip.ok_of (hstart0_0 i a))).WholeWords (EltTy.packing .f32)
  hwxs0_0 : ∀ i : grid0.Coords, EltTy.bits .f32 = 32 ∨ (Rect.unit (s := S256x768) (fun _ => 0) (fun a => (Pipeline.Clip.of (cc0_transform_0 i a) (S256x768.size a) (S12608x768.size a)).extent (S256x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x3072.size a ≤ S768x3072.size a
  hwx0_1 : ∀ i : grid0.Coords, EltTy.bits .bf16 = 32 ∨ (Rect.block (s := S768x3072) S768x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S3072x768.size a
  hwx0_2 : ∀ i : grid0.Coords, EltTy.bits .bf16 = 32 ∨ (Rect.block (s := S3072x768) S3072x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S256x768.size a < S12608x768.size a
  hwx0_10 : ∀ i : grid0.Coords, EltTy.bits .f32 = 32 ∨ (Rect.unit (s := S12608x768) (fun a => cc0_transform_10 i a * S256x768.size a) (fun a => (Pipeline.Clip.of (cc0_transform_10 i a) (S256x768.size a) (S12608x768.size a)).extent (S256x768.size a)) fun a => Pipeline.Clip.inb (Pipeline.Clip.ok_of (hstart0_10 i a))).WholeWords (EltTy.packing .f32)
  hwxs0_10 : ∀ i : grid0.Coords, EltTy.bits .f32 = 32 ∨ (Rect.unit (s := S256x768) (fun _ => 0) (fun a => (Pipeline.Clip.of (cc0_transform_10 i a) (S256x768.size a) (S12608x768.size a)).extent (S256x768.size a)) fun a => (Nat.zero_add _).trans_le (Pipeline.Clip.extent_le (Pipeline.Clip.ok_of (hstart0_10 i a)))).WholeWords (EltTy.packing .f32)

variable [Facts₀]

def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpecClip (Memref.whole main_v0) S256x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v26) S768x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S3072x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v41) S256x768.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1x1x1 : Shape := ⟨3, ![1, 1, 1]⟩
abbrev S1 : Shape := ⟨1, ![1]⟩
abbrev S_ : Shape := ⟨0, ![]⟩
abbrev S3072x1 : Shape := ⟨2, ![3072, 1]⟩
abbrev S64x197x3072 : Shape := ⟨3, ![64, 197, 3072]⟩
abbrev S1x1x3072 : Shape := ⟨3, ![1, 1, 3072]⟩
abbrev S768x1 : Shape := ⟨2, ![768, 1]⟩
abbrev S1x1x768 : Shape := ⟨3, ![1, 1, 768]⟩

abbrev nBuf : Space → Nat
  | .hbm => 111
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1x1x1, .f32⟩
  | .hbm, ⟨6, _⟩ => ⟨S1x1x1, .f32⟩
  | .hbm, ⟨7, _⟩ => ⟨S1x1x1, .f32⟩
  | .hbm, ⟨8, _⟩ => ⟨S1x1x1, .f32⟩
  | .hbm, ⟨9, _⟩ => ⟨S1, .f32⟩
  | .hbm, ⟨10, _⟩ => ⟨S64x197x768, .f32⟩
  | .hbm, ⟨11, _⟩ => ⟨S64x197x768, .f32⟩
  | .hbm, ⟨12, _⟩ => ⟨S3072x768, .f32⟩
  | .hbm, ⟨13, _⟩ => ⟨S_, .f32⟩
  | .hbm, ⟨14, _⟩ => ⟨S3072, .f32⟩
  | .hbm, ⟨15, _⟩ => ⟨S3072x1, .f32⟩
  | .hbm, ⟨16, _⟩ => ⟨S_, .f32⟩
  | .hbm, ⟨17, _⟩ => ⟨S3072x1, .f32⟩
  | .hbm, ⟨18, _⟩ => ⟨S3072x1, .f32⟩
  | .hbm, ⟨19, _⟩ => ⟨S_, .f32⟩
  | .hbm, ⟨20, _⟩ => ⟨S3072, .f32⟩
  | .hbm, ⟨21, _⟩ => ⟨S3072x1, .f32⟩
  | .hbm, ⟨22, _⟩ => ⟨S_, .f32⟩
  | .hbm, ⟨23, _⟩ => ⟨S3072x1, .f32⟩
  | .hbm, ⟨24, _⟩ => ⟨S3072x1, .f32⟩
  | .hbm, ⟨25, _⟩ => ⟨S3072x768, .f32⟩
  | .hbm, ⟨26, _⟩ => ⟨S3072x768, .f32⟩
  | .hbm, ⟨27, _⟩ => ⟨S3072x768, .f32⟩
  | .hbm, ⟨28, _⟩ => ⟨S3072x768, .f32⟩
  | .hbm, ⟨29, _⟩ => ⟨S3072x768, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S3072x768, .f32⟩
  | .hbm, ⟨34, _⟩ => ⟨S3072x768, .f32⟩
  | .hbm, ⟨35, _⟩ => ⟨S_, .f32⟩
  | .hbm, ⟨36, _⟩ => ⟨S3072x768, .f32⟩
  | .hbm, ⟨37, _⟩ => ⟨S3072x768, .f32⟩
  | .hbm, ⟨38, _⟩ => ⟨S3072x768, .f32⟩
  | .hbm, ⟨39, _⟩ => ⟨S3072x768, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64x197x768, .f32⟩
  | .hbm, ⟨44, _⟩ => ⟨S64x197x768, .f32⟩
  | .hbm, ⟨45, _⟩ => ⟨S_, .f32⟩
  | .hbm, ⟨46, _⟩ => ⟨S64x197x768, .f32⟩
  | .hbm, ⟨47, _⟩ => ⟨S64x197x768, .f32⟩
  | .hbm, ⟨48, _⟩ => ⟨S64x197x768, .f32⟩
  | .hbm, ⟨49, _⟩ => ⟨S64x197x768, .f32⟩
  | .hbm, ⟨50, _⟩ => ⟨S64x197x768, .f32⟩
  | .hbm, ⟨51, _⟩ => ⟨S64x197x3072, .f32⟩
  | .hbm, ⟨52, _⟩ => ⟨S1x1x3072, .f32⟩
  | .hbm, ⟨53, _⟩ => ⟨S64x197x3072, .f32⟩
  | .hbm, ⟨54, _⟩ => ⟨S64x197x3072, .f32⟩
  | .hbm, ⟨55, _⟩ => ⟨S64x197x3072, .f32⟩
  | .hbm, ⟨56, _⟩ => ⟨S64x197x3072, .f32⟩
  | .hbm, ⟨57, _⟩ => ⟨S_, .f32⟩
  | .hbm, ⟨58, _⟩ => ⟨S64x197x3072, .f32⟩
  | .hbm, ⟨59, _⟩ => ⟨S64x197x3072, .i1⟩
  | .hbm, ⟨60, _⟩ => ⟨S1x1x1, .f32⟩
  | .hbm, ⟨61, _⟩ => ⟨S64x197x3072, .f32⟩
  | .hbm, ⟨62, _⟩ => ⟨S64x197x3072, .f32⟩
  | .hbm, ⟨63, _⟩ => ⟨S64x197x3072, .f32⟩
  | .hbm, ⟨64, _⟩ => ⟨S64x197x3072, .f32⟩
  | .hbm, ⟨65, _⟩ => ⟨S64x197x3072, .f32⟩
  | .hbm, ⟨66, _⟩ => ⟨S64x197x3072, .f32⟩
  | .hbm, ⟨67, _⟩ => ⟨S64x197x3072, .f32⟩
  | .hbm, ⟨68, _⟩ => ⟨S768x3072, .f32⟩
  | .hbm, ⟨69, _⟩ => ⟨S_, .f32⟩
  | .hbm, ⟨70, _⟩ => ⟨S768, .f32⟩
  | .hbm, ⟨71, _⟩ => ⟨S768x1, .f32⟩
  | .hbm, ⟨72, _⟩ => ⟨S_, .f32⟩
  | .hbm, ⟨73, _⟩ => ⟨S768x1, .f32⟩
  | .hbm, ⟨74, _⟩ => ⟨S768x1, .f32⟩
  | .hbm, ⟨75, _⟩ => ⟨S_, .f32⟩
  | .hbm, ⟨76, _⟩ => ⟨S768, .f32⟩
  | .hbm, ⟨77, _⟩ => ⟨S768x1, .f32⟩
  | .hbm, ⟨78, _⟩ => ⟨S_, .f32⟩
  | .hbm, ⟨79, _⟩ => ⟨S768x1, .f32⟩
  | .hbm, ⟨80, _⟩ => ⟨S768x1, .f32⟩
  | .hbm, ⟨81, _⟩ => ⟨S768x3072, .f32⟩
  | .hbm, ⟨82, _⟩ => ⟨S768x3072, .f32⟩
  | .hbm, ⟨83, _⟩ => ⟨S768x3072, .f32⟩
  | .hbm, ⟨84, _⟩ => ⟨S768x3072, .f32⟩
  | .hbm, ⟨85, _⟩ => ⟨S768x3072, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S768x3072, .f32⟩
  | .hbm, ⟨90, _⟩ => ⟨S768x3072, .f32⟩
  | .hbm, ⟨91, _⟩ => ⟨S_, .f32⟩
  | .hbm, ⟨92, _⟩ => ⟨S768x3072, .f32⟩
  | .hbm, ⟨93, _⟩ => ⟨S768x3072, .f32⟩
  | .hbm, ⟨94, _⟩ => ⟨S768x3072, .f32⟩
  | .hbm, ⟨95, _⟩ => ⟨S768x3072, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S64x197x3072, .f32⟩
  | .hbm, ⟨100, _⟩ => ⟨S64x197x3072, .f32⟩
  | .hbm, ⟨101, _⟩ => ⟨S_, .f32⟩
  | .hbm, ⟨102, _⟩ => ⟨S64x197x3072, .f32⟩
  | .hbm, ⟨103, _⟩ => ⟨S64x197x3072, .f32⟩
  | .hbm, ⟨104, _⟩ => ⟨S64x197x3072, .f32⟩
  | .hbm, ⟨105, _⟩ => ⟨S64x197x3072, .f32⟩
  | .hbm, ⟨106, _⟩ => ⟨S64x197x3072, .f32⟩
  | .hbm, ⟨107, _⟩ => ⟨S64x197x768, .f32⟩
  | .hbm, ⟨108, _⟩ => ⟨S1x1x768, .f32⟩
  | .hbm, ⟨109, _⟩ => ⟨S64x197x768, .f32⟩
  | .hbm, ⟨110, _⟩ => ⟨S64x197x768, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_14 : Ref sig .tc := ⟨.hbm, 96, rfl⟩
abbrev main_cst_15 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩

abbrev nD : Nat := 1
abbrev τ : Topo := Topo.v7x

variable {F : FTy → Type} [FloatOps F]

class Facts₀ : Prop where
  bcast_S1x1x1_S64x197x768_0_1_2 : S1x1x1.BroadcastsInDim S64x197x768 (![0, 1, 2] : Fin 3 → Fin S64x197x768.rank)
  reducesTo_S3072x768_S3072_d1 : S3072x768.ReducesTo [1] S3072
  h_S_ : 0 < S_.numel
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S3072x1_S3072x768_0_1 : S3072x1.BroadcastsInDim S3072x768 (![0, 1] : Fin 2 → Fin S3072x768.rank)
  bcast_S_S3072x768 : S_.BroadcastsInDim S3072x768 (![] : Fin 0 → Fin S3072x768.rank)
  bcast_S_S64x197x768 : S_.BroadcastsInDim S64x197x768 (![] : Fin 0 → Fin S64x197x768.rank)
  bcast_S3072_S1x1x3072_2 : S3072.BroadcastsInDim S1x1x3072 (![2] : Fin 1 → Fin S1x1x3072.rank)
  bcast_S1x1x3072_S64x197x3072_0_1_2 : S1x1x3072.BroadcastsInDim S64x197x3072 (![0, 1, 2] : Fin 3 → Fin S64x197x3072.rank)
  bcast_S1x1x1_S64x197x3072_0_1_2 : S1x1x1.BroadcastsInDim S64x197x3072 (![0, 1, 2] : Fin 3 → Fin S64x197x3072.rank)
  bcast_S_S64x197x3072 : S_.BroadcastsInDim S64x197x3072 (![] : Fin 0 → Fin S64x197x3072.rank)
  bcast_S1_S1x1x1_2 : S1.BroadcastsInDim S1x1x1 (![2] : Fin 1 → Fin S1x1x1.rank)
  reducesTo_S768x3072_S768_d1 : S768x3072.ReducesTo [1] S768
  bcast_S768_S768x1_0 : S768.BroadcastsInDim S768x1 (![0] : Fin 1 → Fin S768x1.rank)
  bcast_S_S768x1 : S_.BroadcastsInDim S768x1 (![] : Fin 0 → Fin S768x1.rank)
  bcast_S768x1_S768x3072_0_1 : S768x1.BroadcastsInDim S768x3072 (![0, 1] : Fin 2 → Fin S768x3072.rank)
  bcast_S_S768x3072 : S_.BroadcastsInDim S768x3072 (![] : Fin 0 → Fin S768x3072.rank)
  bcast_S768_S1x1x768_2 : S768.BroadcastsInDim S1x1x768 (![2] : Fin 1 → Fin S1x1x768.rank)
  bcast_S1x1x768_S64x197x768_0_1_2 : S1x1x768.BroadcastsInDim S64x197x768 (![0, 1, 2] : Fin 3 → Fin S64x197x768.rank)
  dot_S64x197x768_S3072x768_S64x197x3072_2_1_01_0_n_n_wf : DotDims.WF S64x197x768 S3072x768 S64x197x3072 [2] [1] [0, 1] [0] [] []
  dot_S64x197x3072_S768x3072_S64x197x768_2_1_01_0_n_n_wf : DotDims.WF S64x197x3072 S768x3072 S64x197x768 [2] [1] [0, 1] [0] [] []

variable [Facts₀]

def dot_S64x197x768_S3072x768_S64x197x3072_2_1_01_0_n_n : DotDims S64x197x768 S3072x768 S64x197x3072 where
  lhsContracting := [2]
  rhsContracting := [1]
  lhsNonContracting := [0, 1]
  rhsNonContracting := [0]
  lhsBatch := []
  rhsBatch := []
  wf := dot_S64x197x768_S3072x768_S64x197x3072_2_1_01_0_n_n_wf
def dot_S64x197x3072_S768x3072_S64x197x768_2_1_01_0_n_n : DotDims S64x197x3072 S768x3072 S64x197x768 where
  lhsContracting := [2]
  rhsContracting := [1]
  lhsNonContracting := [0, 1]
  rhsNonContracting := [0]
  lhsBatch := []
  rhsBatch := []
  wf := dot_S64x197x3072_S768x3072_S64x197x768_2_1_01_0_n_n_wf

class Facts : Prop extends Facts₀ where

variable [Facts]
-- ==== Proof.FrameBits.lean ====
import proofs.«141185_j78091095375873_2_alg».proof.Proof.Gen.Kernel.Skeleton
import proofs.«141185_j78091095375873_2_alg».proof.Proof.Gen.Kernel.Frame
import Idealize.ShloMosaic.Lib.Pipeline.FrameBody
import Idealize.ShloMosaic.Lib.Tactic

set_option maxRecDepth 16384

noncomputable section

/-! # The frame of the word-level program

The word-level kernel's frame claim says nothing about what the result holds: only that the program runs to
the end without a fault and leaves its arguments as they were.  The body performs eleven whole-buffer loads and
one whole-buffer store, none of which can fault whatever the buffers hold; so the proof data constrain nothing
about the staging buffers' contents (every window's relation is `True`), and the argument arrays — which no
window stages and no host line after the call writes — are read off the run's post unchanged. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple with nothing said of the output: from the eleven staging buffers at any contents the body
    runs without fault, leaves the ten inputs as found and the output buffer at some contents. -/
theorem sound_kernel (c : Dev nD) (E : Set ℕ) (i : grid0.Coords) (arg1 : Memref sig .tc .vmem S256x768 .f32) (harg1 : arg1.IsWhole) (arg2 : Memref sig .tc .vmem S768x3072 .bf16) (harg2 : arg2.IsWhole) (arg3 : Memref sig .tc .vmem S3072x768 .bf16) (harg3 : arg3.IsWhole) (arg4 : Memref sig .tc .vmem S1x3072 .f32) (harg4 : arg4.IsWhole) (arg5 : Memref sig .tc .vmem S1x768 .f32) (harg5 : arg5.IsWhole) (arg6 : Memref sig .tc .vmem S1x3072 .f32) (harg6 : arg6.IsWhole) (arg7 : Memref sig .tc .vmem S1x768 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S256x768 .f32) (harg11 : arg11.IsWhole)
    (x1 : Vec F S256x768 .f32) (x2 : Vec F S768x3072 .bf16) (x3 : Vec F S3072x768 .bf16) (x4 : Vec F S1x3072 .f32) (x5 : Vec F S1x768 .f32) (x6 : Vec F S1x3072 .f32) (x7 : Vec F S1x768 .f32) (x8 : Vec F S1x1 .f32) (x9 : Vec F S1x1 .f32) (x10 : Vec F S1x1 .f32) (x11 : Vec F S256x768 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ X, owns (c : Thread nD τ) arg11 fullShare X)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, -, H11⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; iexists _; isplitr
  swap; · iexact H11
  ipureintro
  rfl

/-! ## The proof data: arrays as the call finds them, nothing said of the staging buffers -/

/-- Relational proof data: every window's relation between what the body is handed and what it leaves is `True`. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`, the windows one by one, at any contents `Y`; -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10))

/-- and what it returns: each buffer at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X))

/-- The body at any point, on any contents. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8, H9, H10⟩
  iapply (sound_kernel c Set.univ (grid0.coords t) _ _ _ _ _ _ _ _ _ _ _ _ _ _ _ _ _ _ _ _ _ _ (Y 0) (Y 1) (Y 2) (Y 3) (Y 4) (Y 5) (Y 6) (Y 7) (Y 8) (Y 9) (Y 10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%X, H10⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  iexists X; isplitr; · ipureintro; trivial
  iexact H10

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

/-- The one buffer the host line after the call writes. -/
abbrev tailWrites : Finset (Ref sig .tc) := {main_v42}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  have : b = main_v42 := Proc.devRef_injective _ hb
  simp [tailWrites, this]

set_option backward.isDefEq.respectTransparency.types false in
/-- The run of @main: it terminates without fault, and every buffer no window stages and the last host line
    does not write ends as the call found it. -/
theorem run_main : θ_run defs (onTc (τ := τ) (main (F := F))) (s₀ m ρ)
    (RDat.FramePostR cfg0 (rdat m) tailWrites (fun c b => V0 m c (Proc.devRef .tc b))) :=
  RDat.θ_run_frame_around_T cfgs (0 : Fin 1) launch0 defs₀ Variants.none (rdat m) tailWrites m ρ main
    (hbody := body_obligation m) (hshare := fun c w => by unfold RDat.share; split <;> rfl)
    (howed := fun _ _ => rfl) (V₀ := V0 m) (opss := [hostOps1]) (hsub := sfx_sub) (hfresh := sfx_fresh) (hkeep := sfx_keeps)
    (hT := sfx_writes)
    (hmain := hmain m Variants.none) (hA := fun _ _ => rfl) (hΦ := fun _ _ => rfl)

/-- The frame claim's post from the run's: each argument array is staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c)⟩) (run_main m ρ)

end Cert.Kernel.Body

end
-- ==== Proof.BodyIdeal.lean ====
import proofs.«141185_j78091095375873_2_alg».proof.Proof.Gen.KernelIdeal.Skeleton
import proofs.«141185_j78091095375873_2_alg».proof.Proof.Gen.KernelIdeal.Frame
import Idealize.ShloMosaic.Lib.Pipeline.FrameBody
import Idealize.ShloMosaic.Lib.Tactic

set_option maxRecDepth 16384

noncomputable section

/-! # The kernel body at one grid point (idealized program)

One grid point handles a tile of 256 token rows.  The body reads its ten staged inputs whole — the
activation tile, the two sign matrices, the two per-channel scale rows, the two bias rows and three
scalars — and overwrites the output tile with

  out = (sgn(PReLU((sgn(x + s₁) · W₁ᵀ) ∘ sf₁ + b₁) + s₂) · W₂ᵀ) ∘ sf₂ + b₂ ,

as one pure function of what it read.  This module names that function and proves the body's
separation-logic triple: every input buffer is left as found, the output buffer ends at that function
of the inputs, whatever it held before. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles through which the body loads and stores. -/
abbrev rTile : Rect S256x768 := Rect.unit (s := S256x768) ![0, 0] S256x768.size inb_S256x768_S256x768_0_0
abbrev rW1 : Rect S768x3072 := Rect.unit (s := S768x3072) ![0, 0] S768x3072.size inb_S768x3072_S768x3072_0_0
abbrev rW2 : Rect S3072x768 := Rect.unit (s := S3072x768) ![0, 0] S3072x768.size inb_S3072x768_S3072x768_0_0
abbrev rHid : Rect S1x3072 := Rect.unit (s := S1x3072) ![0, 0] S1x3072.size inb_S1x3072_S1x3072_0_0
abbrev rCh : Rect S1x768 := Rect.unit (s := S1x768) ![0, 0] S1x768.size inb_S1x768_S1x768_0_0
abbrev rSc : Rect S1x1 := Rect.unit (s := S1x1) ![0, 0] S1x1.size inb_S1x1_S1x1_0_0

/-- The hidden activations of the tile (before the second sign), from the staged inputs. -/
def hidden (x1 : Vec F S256x768 .f32) (x2 : Vec F S768x3072 .bf16) (x3 : Vec F S3072x768 .bf16) (x4 : Vec F S1x3072 .f32) (x5 : Vec F S1x768 .f32) (x6 : Vec F S1x3072 .f32) (x7 : Vec F S1x768 .f32) (x8 : Vec F S1x1 .f32) (x9 : Vec F S1x1 .f32) (x10 : Vec F S1x1 .f32) : FVec F S256x3072 .f32 :=
  k0_pay2 (View.ld x8 rSc) (View.ld x9 rSc) (View.ld x10 rSc) (View.ld x1 rTile) (View.ld x2 rW1) (View.ld x4 rHid) (View.ld x6 rHid)

/-- The value the body stores: the output tile as a function of the staged inputs. -/
def stored (x1 : Vec F S256x768 .f32) (x2 : Vec F S768x3072 .bf16) (x3 : Vec F S3072x768 .bf16) (x4 : Vec F S1x3072 .f32) (x5 : Vec F S1x768 .f32) (x6 : Vec F S1x3072 .f32) (x7 : Vec F S1x768 .f32) (x8 : Vec F S1x1 .f32) (x9 : Vec F S1x1 .f32) (x10 : Vec F S1x1 .f32) : FVec F S256x768 .f32 :=
  k0_pay1 (hidden x1 x2 x3 x4 x5 x6 x7 x8 x9 x10) (View.ld x3 rW2) (View.ld x5 rCh) (View.ld x7 rCh)

/-- What the output buffer holds after the body: its one store, which covers the buffer. -/
def outTile (x1 : Vec F S256x768 .f32) (x2 : Vec F S768x3072 .bf16) (x3 : Vec F S3072x768 .bf16) (x4 : Vec F S1x3072 .f32) (x5 : Vec F S1x768 .f32) (x6 : Vec F S1x3072 .f32) (x7 : Vec F S1x768 .f32) (x8 : Vec F S1x1 .f32) (x9 : Vec F S1x1 .f32) (x10 : Vec F S1x1 .f32) : Vec F S256x768 .f32 :=
  View.canon [⟨rTile, stored x1 x2 x3 x4 x5 x6 x7 x8 x9 x10⟩]

/-- The one store covers the whole output buffer. -/
theorem cover_out (p0 : Vec F S256x768 .f32) (y : S256x768.Idx) :
    ∃ pc ∈ ([⟨rTile, p0⟩] : List (View.Piece (Elt F) S256x768 .f32)), y ∈ pc.1.set :=
  View.cover_of_tiled [⟨rTile, p0⟩] S256x768.size (by rfl) y

set_option maxHeartbeats 4000000 in
/-- The body's triple: from the ten inputs at contents `x1 … x10` and the output buffer at anything, the
    body runs without fault to the inputs unchanged and the output at `outTile` of them. -/
theorem sound_kernel (c : Dev nD) (E : Set ℕ) (i : grid0.Coords) (arg1 : Memref sig .tc .vmem S256x768 .f32) (harg1 : arg1.IsWhole) (arg2 : Memref sig .tc .vmem S768x3072 .bf16) (harg2 : arg2.IsWhole) (arg3 : Memref sig .tc .vmem S3072x768 .bf16) (harg3 : arg3.IsWhole) (arg4 : Memref sig .tc .vmem S1x3072 .f32) (harg4 : arg4.IsWhole) (arg5 : Memref sig .tc .vmem S1x768 .f32) (harg5 : arg5.IsWhole) (arg6 : Memref sig .tc .vmem S1x3072 .f32) (harg6 : arg6.IsWhole) (arg7 : Memref sig .tc .vmem S1x768 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S256x768 .f32) (harg11 : arg11.IsWhole)
    (x1 : Vec F S256x768 .f32) (x2 : Vec F S768x3072 .bf16) (x3 : Vec F S3072x768 .bf16) (x4 : Vec F S1x3072 .f32) (x5 : Vec F S1x768 .f32) (x6 : Vec F S1x3072 .f32) (x7 : Vec F S1x768 .f32) (x8 : Vec F S1x1 .f32) (x9 : Vec F S1x1 .f32) (x10 : Vec F S1x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ (∃ d, owns (c : Thread nD τ) arg11 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare x10
            ∗ owns (c : Thread nD τ) arg11 fullShare (outTile x1 x2 x3 x4 x5 x6 x7 x8 x9 x10)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.KernelIdeal.Body

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.Spec.lean ====
import Idealize.ShloMosaic.PureOps.Ideal.Laws
import Idealize.ShloMosaic.Lib.ValueIdx
import proofs.«141185_j78091095375873_2_alg».proof.Proof.LibRealValued

/-! # The function both programs compute

A two-layer perceptron with one-bit activations and one-bit weights, on the extended reals.
For a weight matrix `W` (one row per output channel) put

  sc(W)[o]   = mean over the row of |W[o, ·]|            (the row's scale)
  sg(W)[o,i] = sign(W[o,i] − mean of the row W[o, ·])    (the row's centred signs).

With `x` the tokens, `s₅ … s₈` four scalar shifts and `a` the slope of the leaky rectifier,

  h[t,k]   = prelu_a( (Σ_j sign(x[t,j] + s₅) · sg(W₁)[k,j]) · sc(W₁)[k] + (b₁[k] + s₆) ) + (s₇ + s₈)
  out[t,c] = (Σ_k sign(h[t,k]) · sg(W₂)[c,k]) · sc(W₂)[c] + b₂[c].

The row scale is pulled out of the contraction; that is legitimate because it is a real number as soon
as the weights are (`isReal_scale1`, `isReal_scale2`). -/

noncomputable section

namespace Cert.Spec

open Idealize.ShloMosaic Idealize.ShloMosaic.ValueIdx Cert.RealValued

abbrev SX : Shape := ⟨3, ![64, 197, 768]⟩
abbrev SH : Shape := ⟨3, ![64, 197, 3072]⟩
abbrev SW1 : Shape := ⟨2, ![3072, 768]⟩
abbrev SB1 : Shape := ⟨1, ![3072]⟩
abbrev SW2 : Shape := ⟨2, ![768, 3072]⟩
abbrev SB2 : Shape := ⟨1, ![768]⟩
abbrev S111 : Shape := ⟨3, ![1, 1, 1]⟩
abbrev SOne : Shape := ⟨1, ![1]⟩
abbrev S0 : Shape := ⟨0, ![]⟩
abbrev SC1 : Shape := ⟨2, ![3072, 1]⟩
abbrev SC2 : Shape := ⟨2, ![768, 1]⟩

/-! ## The weights' preprocessing, as the host operations both programs apply -/

/-- Row sums of a 3072×768 matrix from the zero word. -/
def rowSum1 (w : FVec Ideal SW1 .f32) : FVec Ideal SB1 .f32 :=
  Host.reduceAdd w (constant (F := Ideal) S0 .f32 0x00000000#32) (by decide : SW1.ReducesTo [1] SB1) (by decide)
/-- Row means of a 3072×768 matrix, as a column: the row sums divided by 768. -/
def rowMean1 (w : FVec Ideal SW1 .f32) : FVec Ideal SC1 .f32 :=
  Host.divf (broadcastInDim SC1 ![0] (by decide) (rowSum1 w))
    (broadcastInDim SC1 ![] (by decide) (constant (F := Ideal) S0 .f32 0x44400000#32))
/-- The scale of each output channel of the first layer: the mean of the absolute values of its row. -/
def scale1 (w : FVec Ideal SW1 .f32) : FVec Ideal SC1 .f32 := rowMean1 (Host.absf w)
/-- The centred signs of the first layer's weights. -/
def signs1 (w : FVec Ideal SW1 .f32) : FVec Ideal SW1 .f32 :=
  Host.sign (subf w (broadcastInDim SW1 ![0, 1] (by decide) (rowMean1 w)))

/-- Row sums of a 768×3072 matrix from the zero word. -/
def rowSum2 (w : FVec Ideal SW2 .f32) : FVec Ideal SB2 .f32 :=
  Host.reduceAdd w (constant (F := Ideal) S0 .f32 0x00000000#32) (by decide : SW2.ReducesTo [1] SB2) (by decide)
/-- Row means of a 768×3072 matrix, as a column: the row sums divided by 3072. -/
def rowMean2 (w : FVec Ideal SW2 .f32) : FVec Ideal SC2 .f32 :=
  Host.divf (broadcastInDim SC2 ![0] (by decide) (rowSum2 w))
    (broadcastInDim SC2 ![] (by decide) (constant (F := Ideal) S0 .f32 0x45400000#32))
/-- The scale of each output channel of the second layer. -/
def scale2 (w : FVec Ideal SW2 .f32) : FVec Ideal SC2 .f32 := rowMean2 (Host.absf w)
/-- The centred signs of the second layer's weights. -/
def signs2 (w : FVec Ideal SW2 .f32) : FVec Ideal SW2 .f32 :=
  Host.sign (subf w (broadcastInDim SW2 ![0, 1] (by decide) (rowMean2 w)))

/-! ## The scalar pieces -/

/-- The zero word. -/
abbrev zeroF : EReal := Ideal.ofBits .f32 0x00000000#32

/-- The leaky rectifier with slope `a`: `y` where `0 ≤ y`, else `a · y`. -/
def prelu (a y : EReal) : EReal := Scalar.select (Ideal.cmp .oge y zeroF) y (a * y)

/-- The sign as the kernel spells it: where `|y| > 0` it is `−1` below zero and `1` otherwise; where `|y| = 0` it is `y`. -/
def ksign (y : EReal) : EReal :=
  Scalar.select (Ideal.cmp .ogt (max y (-y)) zeroF)
    (Scalar.select (Ideal.cmp .olt y zeroF) (Ideal.ofBits .f32 0xBF800000#32) (Ideal.ofBits .f32 0x3F800000#32)) y

/-! ## The two layers, entry by entry -/

section
variable (x : FVec Ideal SX .f32) (w1 : FVec Ideal SW1 .f32) (b1 : FVec Ideal SB1 .f32)
  (w2 : FVec Ideal SW2 .f32) (b2 : FVec Ideal SB2 .f32) (s5 s6 s7 s8 : FVec Ideal S111 .f32) (a9 : FVec Ideal SOne .f32)

/-- The hidden activation of token `(b, n)` at hidden channel `k`. -/
def hid (b : Fin 64) (n : Fin 197) (k : Fin 3072) : EReal :=
  prelu (a9 (ix1 0))
    ((∑ j : Fin 768, Ideal.sign (x (ix3 b n j) + s5 (ix3 0 0 0)) * signs1 w1 (ix2 k j)) * scale1 w1 (ix2 k 0)
      + (b1 (ix1 k) + s6 (ix3 0 0 0)))
    + (s7 (ix3 0 0 0) + s8 (ix3 0 0 0))

/-- The output of token `(b, n)` at channel `c`. -/
def outAt (b : Fin 64) (n : Fin 197) (c : Fin 768) : EReal :=
  (∑ k : Fin 3072, Ideal.sign (hid x w1 b1 s5 s6 s7 s8 a9 b n k) * signs2 w2 (ix2 c k)) * scale2 w2 (ix2 c 0)
    + b2 (ix1 c)

/-- The whole result array. -/
def G : FVec Ideal SX .f32 := fun i => outAt x w1 b1 w2 b2 s5 s6 s7 s8 a9 (i 0) (i 1) (i 2)

end

/-! ## Small facts about the pieces -/

theorem zeroF_eq : zeroF = 0 := Ideal.ofBits_zero_f32

/-- The word 0x3F800000 denotes 1. -/
theorem ofBits_one : Ideal.ofBits .f32 0x3F800000#32 = ((1 : ℝ) : EReal) := by
  simp [Ideal.ofBits, Ideal.ieee, -EReal.coe_mul]; norm_num
/-- The word 0xBF800000 denotes −1. -/
theorem ofBits_neg_one : Ideal.ofBits .f32 0xBF800000#32 = ((-1 : ℝ) : EReal) := by
  simp [Ideal.ofBits, Ideal.ieee, -EReal.coe_mul]; norm_num
/-- The word 0x44400000 denotes 768. -/
theorem ofBits_768 : Ideal.ofBits .f32 0x44400000#32 = ((768 : ℝ) : EReal) := by
  simp [Ideal.ofBits, Ideal.ieee, -EReal.coe_mul]; norm_num
/-- The word 0x45400000 denotes 3072. -/
theorem ofBits_3072 : Ideal.ofBits .f32 0x45400000#32 = ((3072 : ℝ) : EReal) := by
  simp [Ideal.ofBits, Ideal.ieee, -EReal.coe_mul]; norm_num

/-- The sign of an extended real is a real number. -/
theorem isReal_sign (y : EReal) : IsReal (Ideal.sign y) := by
  induction y using EReal.rec with
  | bot => exact ⟨-1, by simp⟩
  | coe r => exact ⟨_, rfl⟩
  | top => exact ⟨1, by simp⟩

/-- The kernel's spelling of the sign is the sign. -/
theorem ksign_eq_sign (y : EReal) : ksign y = Ideal.sign y := by
  unfold ksign
  rw [zeroF_eq, ofBits_one, ofBits_neg_one]
  induction y using EReal.rec with
  | bot =>
    have h1 : Ideal.cmp .ogt (max (⊥ : EReal) (-⊥)) 0 = 1#1 := by simp [Ideal.cmp]
    have h2 : Ideal.cmp .olt (⊥ : EReal) 0 = 1#1 := by simp [Ideal.cmp]
    rw [h1, select_one, h2, select_one]; simp
  | top =>
    have h1 : Ideal.cmp .ogt (max (⊤ : EReal) (-⊤)) 0 = 1#1 := by simp [Ideal.cmp]
    have h2 : Ideal.cmp .olt (⊤ : EReal) 0 = 0#1 := by simp [Ideal.cmp]
    rw [h1, select_one, h2, select_zero]; simp
  | coe r =>
    rcases lt_trichotomy r 0 with h | h | h
    · have h1 : Ideal.cmp .ogt (max (r : EReal) (-(r : EReal))) 0 = 1#1 := by
        have : (0 : EReal) < max (r : EReal) (-(r : EReal)) := lt_max_of_lt_right (by
          rw [← EReal.coe_neg, ← EReal.coe_zero, EReal.coe_lt_coe_iff]; linarith)
        simp [Ideal.cmp, this]
      have h2 : Ideal.cmp .olt (r : EReal) 0 = 1#1 := by
        have : (r : EReal) < 0 := by rw [← EReal.coe_zero, EReal.coe_lt_coe_iff]; exact h
        simp [Ideal.cmp, this]
      rw [h1, select_one, h2, select_one, Ideal.sign_coe, sign_neg h]; simp
    · subst h
      have h1 : Ideal.cmp .ogt (max ((0 : ℝ) : EReal) (-((0 : ℝ) : EReal))) 0 = 0#1 := by simp [Ideal.cmp]
      rw [h1, select_zero, Ideal.sign_coe, sign_zero]; simp
    · have h1 : Ideal.cmp .ogt (max (r : EReal) (-(r : EReal))) 0 = 1#1 := by
        have : (0 : EReal) < max (r : EReal) (-(r : EReal)) := lt_max_of_lt_left (by
          rw [← EReal.coe_zero, EReal.coe_lt_coe_iff]; exact h)
        simp [Ideal.cmp, this]
      have h2 : Ideal.cmp .olt (r : EReal) 0 = 0#1 := by
        have : ¬ (r : EReal) < 0 := by rw [← EReal.coe_zero, EReal.coe_lt_coe_iff]; exact not_lt.mpr h.le
        simp [Ideal.cmp, this]
      rw [h1, select_one, h2, select_zero, Ideal.sign_coe, sign_pos h]; simp

end Cert.Spec

end
-- ==== Proof.TileValue.lean ====
import proofs.«141185_j78091095375873_2_alg».proof.Proof.BodyIdeal
import proofs.«141185_j78091095375873_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! # The tile the body stores, entry by entry (extended reals)

Row `p` of the stored tile depends on row `p` of the activation tile only:

  hidden[p,k] = prelu_a( (Σ_j sgn(x[p,j] + s₁) · A[j,k]) · f[k] + g[k] ) + s₂
  stored[p,q] = (Σ_k sgn(hidden[p,k]) · B[k,q]) · f'[q] + g'[q]

with `A, B` the two staged sign matrices, `f, f'` the staged scale rows, `g, g'` the staged bias rows,
`s₁, s₂, a` the three staged scalars and `sgn` the kernel's spelling of the sign. -/

noncomputable section

namespace Cert.KernelIdeal.Body

open Cert.KernelIdeal Cert.KernelIdeal.Gen
open Idealize.ShloMosaic Idealize.ShloMosaic.ValueIdx

/-- The two matrix products' dimension records. -/
abbrev D1 := dot_S256x768_S768x3072_S256x3072_1_0_0_1_n_n
abbrev D2 := dot_S256x3072_S3072x768_S256x768_1_0_0_1_n_n

theorem hz2 : (![0, 0] : Fin 2 → Nat) = fun _ => 0 := funext fun a => by
  match a with | ⟨0, _⟩ => rfl | ⟨1, _⟩ => rfl

theorem mm1_l0 (i : S256x3072.Idx) (qq : D1.contr.Idx) : (D1.lhsIdx i qq 0).val = (i 0).val := by
  unfold DotDims.lhsIdx
  rw [dif_neg (show ¬(0 : Fin S256x768.rank) ∈ D1.lhsBatch by decide), dif_pos (show (0 : Fin S256x768.rank) ∈ D1.lhsNonContracting by decide)]
  rfl
theorem mm1_l1 (i : S256x3072.Idx) (qq : D1.contr.Idx) : (D1.lhsIdx i qq 1).val = (qq ⟨0, by decide⟩).val :=
  D1.lhsIdx_val_of_single rfl i qq
theorem mm1_r0 (i : S256x3072.Idx) (qq : D1.contr.Idx) : (D1.rhsIdx i qq 0).val = (qq ⟨0, by decide⟩).val :=
  D1.rhsIdx_val_of_single rfl i qq
theorem mm1_r1 (i : S256x3072.Idx) (qq : D1.contr.Idx) : (D1.rhsIdx i qq 1).val = (i 1).val := by
  unfold DotDims.rhsIdx
  rw [dif_neg (show ¬(1 : Fin S768x3072.rank) ∈ D1.rhsBatch by decide), dif_pos (show (1 : Fin S768x3072.rank) ∈ D1.rhsNonContracting by decide)]
  rfl

/-- The first product into the zero accumulator, at an entry: the plain sum over the 768 input channels. -/
theorem mm1_apply {φ₁ φ₂ : FTy} (a : FVec Ideal S256x768 φ₁) (b : FVec Ideal S768x3072 φ₂) (p : Fin 256) (k : Fin 3072) :
    matmul D1 none a b (constant (F := Ideal) S256x3072 .f32 0x00000000#32) (ix2 p k) = ∑ j : Fin 768, a (ix2 p j) * b (ix2 j k) := by
  refine (Ideal.matmul_constant_zero_apply D1 none a b (ix2 p k)).trans ?_
  rw [← Equiv.sum_comp (contrEquiv1 D1 768 rfl rfl).symm]
  refine Finset.sum_congr rfl fun j _ => ?_
  have hk := contrEquiv1_symm_val D1 768 rfl rfl j
  have el : D1.lhsIdx (ix2 p k) ((contrEquiv1 D1 768 rfl rfl).symm j) = ix2 p j := funext fun ax => Fin.ext (by
    match ax with
    | ⟨0, _⟩ => exact mm1_l0 _ _
    | ⟨1, _⟩ => exact (mm1_l1 _ _).trans hk)
  have er : D1.rhsIdx (ix2 p k) ((contrEquiv1 D1 768 rfl rfl).symm j) = ix2 j k := funext fun ax => Fin.ext (by
    match ax with
    | ⟨0, _⟩ => exact (mm1_r0 _ _).trans hk
    | ⟨1, _⟩ => exact mm1_r1 _ _)
  rw [el, er]

theorem mm2_l0 (i : S256x768.Idx) (qq : D2.contr.Idx) : (D2.lhsIdx i qq 0).val = (i 0).val := by
  unfold DotDims.lhsIdx
  rw [dif_neg (show ¬(0 : Fin S256x3072.rank) ∈ D2.lhsBatch by decide), dif_pos (show (0 : Fin S256x3072.rank) ∈ D2.lhsNonContracting by decide)]
  rfl
theorem mm2_l1 (i : S256x768.Idx) (qq : D2.contr.Idx) : (D2.lhsIdx i qq 1).val = (qq ⟨0, by decide⟩).val :=
  D2.lhsIdx_val_of_single rfl i qq
theorem mm2_r0 (i : S256x768.Idx) (qq : D2.contr.Idx) : (D2.rhsIdx i qq 0).val = (qq ⟨0, by decide⟩).val :=
  D2.rhsIdx_val_of_single rfl i qq
theorem mm2_r1 (i : S256x768.Idx) (qq : D2.contr.Idx) : (D2.rhsIdx i qq 1).val = (i 1).val := by
  unfold DotDims.rhsIdx
  rw [dif_neg (show ¬(1 : Fin S3072x768.rank) ∈ D2.rhsBatch by decide), dif_pos (show (1 : Fin S3072x768.rank) ∈ D2.rhsNonContracting by decide)]
  rfl

/-- The second product into the zero accumulator, at an entry: the plain sum over the 3072 hidden channels. -/
theorem mm2_apply {φ₁ φ₂ : FTy} (a : FVec Ideal S256x3072 φ₁) (b : FVec Ideal S3072x768 φ₂) (p : Fin 256) (q : Fin 768) :
    matmul D2 none a b (constant (F := Ideal) S256x768 .f32 0x00000000#32) (ix2 p q) = ∑ k : Fin 3072, a (ix2 p k) * b (ix2 k q) := by
  refine (Ideal.matmul_constant_zero_apply D2 none a b (ix2 p q)).trans ?_
  rw [← Equiv.sum_comp (contrEquiv1 D2 3072 rfl rfl).symm]
  refine Finset.sum_congr rfl fun k _ => ?_
  have hk := contrEquiv1_symm_val D2 3072 rfl rfl k
  have el : D2.lhsIdx (ix2 p q) ((contrEquiv1 D2 3072 rfl rfl).symm k) = ix2 p k := funext fun ax => Fin.ext (by
    match ax with
    | ⟨0, _⟩ => exact mm2_l0 _ _
    | ⟨1, _⟩ => exact (mm2_l1 _ _).trans hk)
  have er : D2.rhsIdx (ix2 p q) ((contrEquiv1 D2 3072 rfl rfl).symm k) = ix2 k q := funext fun ax => Fin.ext (by
    match ax with
    | ⟨0, _⟩ => exact (mm2_r0 _ _).trans hk
    | ⟨1, _⟩ => exact mm2_r1 _ _)
  rw [el, er]

/-- The one entry of a staged scalar. -/
theorem extract00 (v : FVec Ideal S1x1 .f32) (h : ∀ a, (![0, 0] : Fin 2 → Nat) a < S1x1.size a) :
    extractAt ![0, 0] v h = v (ix2 (0 : Fin 1) (0 : Fin 1)) := by
  unfold extractAt
  refine congrArg v (funext fun a => Fin.ext ?_)
  match a with | ⟨0, _⟩ => rfl | ⟨1, _⟩ => rfl

/-- The kernel's sign of an activation entry, as the body spells it on vectors. -/
theorem ksign_vec {S : Shape} (v : FVec Ideal S .f32) (i : S.Idx) :
    select (cmpf .ogt (absf v) (broadcast S (Scalar.ofBits (F := Ideal) .f32 0x00000000#32)))
        (select (cmpf .olt v (constant (F := Ideal) S .f32 0x00000000#32)) (constant (F := Ideal) S .f32 0xBF800000#32) (constant (F := Ideal) S .f32 0x3F800000#32)) v i
      = Cert.Spec.ksign (v i) := rfl

/-- The hidden activations of the tile, entry by entry. -/
theorem hidden_apply (x1 : FVec Ideal S256x768 .f32) (x2 : FVec Ideal S768x3072 .bf16) (x3 : FVec Ideal S3072x768 .bf16) (x4 : FVec Ideal S1x3072 .f32) (x5 : FVec Ideal S1x768 .f32) (x6 : FVec Ideal S1x3072 .f32) (x7 : FVec Ideal S1x768 .f32) (x8 : FVec Ideal S1x1 .f32) (x9 : FVec Ideal S1x1 .f32) (x10 : FVec Ideal S1x1 .f32) (p : Fin 256) (k : Fin 3072) :
    hidden (F := Ideal) x1 x2 x3 x4 x5 x6 x7 x8 x9 x10 (ix2 p k)
      = Cert.Spec.prelu (x10 (ix2 (0 : Fin 1) (0 : Fin 1)))
          ((∑ j : Fin 768, Cert.Spec.ksign (x1 (ix2 p j) + x8 (ix2 (0 : Fin 1) (0 : Fin 1))) * x2 (ix2 j k)) * x4 (ix2 (0 : Fin 1) k)
            + x6 (ix2 (0 : Fin 1) k))
        + x9 (ix2 (0 : Fin 1) (0 : Fin 1)) := by
  unfold hidden k0_pay2
  simp only [View.ld_unit_zero (S := S1x1) hz2, View.ld_unit_zero (S := S256x768) hz2, View.ld_unit_zero (S := S768x3072) hz2,
    View.ld_unit_zero (S := S1x3072) hz2, shapeCast_self, extract00]
  show Cert.Spec.prelu _ (_ * _ + _) + _ = _
  rw [mm1_apply, broadcastTo_1b_ab_apply, broadcastTo_1b_ab_apply]
  rfl

/-- The stored tile, entry by entry. -/
theorem stored_apply (x1 : FVec Ideal S256x768 .f32) (x2 : FVec Ideal S768x3072 .bf16) (x3 : FVec Ideal S3072x768 .bf16) (x4 : FVec Ideal S1x3072 .f32) (x5 : FVec Ideal S1x768 .f32) (x6 : FVec Ideal S1x3072 .f32) (x7 : FVec Ideal S1x768 .f32) (x8 : FVec Ideal S1x1 .f32) (x9 : FVec Ideal S1x1 .f32) (x10 : FVec Ideal S1x1 .f32) (p : Fin 256) (q : Fin 768) :
    stored (F := Ideal) x1 x2 x3 x4 x5 x6 x7 x8 x9 x10 (ix2 p q)
      = (∑ k : Fin 3072, Cert.Spec.ksign (hidden (F := Ideal) x1 x2 x3 x4 x5 x6 x7 x8 x9 x10 (ix2 p k)) * x3 (ix2 k q)) * x5 (ix2 (0 : Fin 1) q)
          + x7 (ix2 (0 : Fin 1) q) := by
  unfold stored k0_pay1
  generalize hidden (F := Ideal) x1 x2 x3 x4 x5 x6 x7 x8 x9 x10 = hd
  simp only [View.ld_unit_zero (S := S3072x768) hz2, View.ld_unit_zero (S := S1x768) hz2, shapeCast_self]
  show _ * _ + _ = _
  rw [mm2_apply, broadcastTo_1b_ab_apply, broadcastTo_1b_ab_apply]
  rfl

/-- What the output buffer holds after the body is the stored tile. -/
theorem outTile_eq (x1 : FVec Ideal S256x768 .f32) (x2 : FVec Ideal S768x3072 .bf16) (x3 : FVec Ideal S3072x768 .bf16) (x4 : FVec Ideal S1x3072 .f32) (x5 : FVec Ideal S1x768 .f32) (x6 : FVec Ideal S1x3072 .f32) (x7 : FVec Ideal S1x768 .f32) (x8 : FVec Ideal S1x1 .f32) (x9 : FVec Ideal S1x1 .f32) (x10 : FVec Ideal S1x1 .f32) :
    outTile (F := Ideal) x1 x2 x3 x4 x5 x6 x7 x8 x9 x10 = stored (F := Ideal) x1 x2 x3 x4 x5 x6 x7 x8 x9 x10 := by
  unfold outTile
  exact View.canon_unit_zero hz2 _ _

/-! ## One token at a time -/

/-- Hidden channel `k` of one token, from the token's row `xr` of activations. -/
def hidRow (xr : Fin 768 → EReal) (A : FVec Ideal S768x3072 .bf16) (f g : FVec Ideal S1x3072 .f32) (s1 s2 a : EReal) (k : Fin 3072) : EReal :=
  Cert.Spec.prelu a ((∑ j : Fin 768, Cert.Spec.ksign (xr j + s1) * A (ix2 j k)) * f (ix2 (0 : Fin 1) k) + g (ix2 (0 : Fin 1) k)) + s2

/-- Output channel `q` of one token, from the token's row `xr` of activations. -/
def outRow (xr : Fin 768 → EReal) (A : FVec Ideal S768x3072 .bf16) (B : FVec Ideal S3072x768 .bf16) (f g : FVec Ideal S1x3072 .f32)
    (f' g' : FVec Ideal S1x768 .f32) (s1 s2 a : EReal) (q : Fin 768) : EReal :=
  (∑ k : Fin 3072, Cert.Spec.ksign (hidRow xr A f g s1 s2 a k) * B (ix2 k q)) * f' (ix2 (0 : Fin 1) q) + g' (ix2 (0 : Fin 1) q)

/-- Row `p` of the stored tile is the token function of row `p` of the activation tile. -/
theorem stored_row (x1 : FVec Ideal S256x768 .f32) (x2 : FVec Ideal S768x3072 .bf16) (x3 : FVec Ideal S3072x768 .bf16) (x4 : FVec Ideal S1x3072 .f32) (x5 : FVec Ideal S1x768 .f32) (x6 : FVec Ideal S1x3072 .f32) (x7 : FVec Ideal S1x768 .f32) (x8 : FVec Ideal S1x1 .f32) (x9 : FVec Ideal S1x1 .f32) (x10 : FVec Ideal S1x1 .f32) (p : Fin 256) (q : Fin 768) :
    stored (F := Ideal) x1 x2 x3 x4 x5 x6 x7 x8 x9 x10 (ix2 p q)
      = outRow (fun j => x1 (ix2 p j)) x2 x3 x4 x6 x5 x7 (x8 (ix2 (0 : Fin 1) (0 : Fin 1))) (x9 (ix2 (0 : Fin 1) (0 : Fin 1))) (x10 (ix2 (0 : Fin 1) (0 : Fin 1))) q := by
  rw [stored_apply]
  unfold outRow hidRow
  simp only [hidden_apply]

end Cert.KernelIdeal.Body

end
-- ==== Proof.FlatSpec.lean ====
import proofs.«141185_j78091095375873_2_alg».proof.Proof.TileValue
import proofs.«141185_j78091095375873_2_alg».proof.Proof.Gen.KernelIdeal.Frame

set_option maxRecDepth 16384

/-! # The result of the call as one function of the staged arrays

The call's ten operands are arrays the host lines before it computed.  Row `r` of the result (one token) is the
token function of row `r` of the flattened activations: the 12608 rows are independent, which is why a tile of
256 rows hanging over the array's end does no harm — the rows past the end are computed from words nothing
names and are never written back. -/

noncomputable section

namespace Cert.KernelIdeal.Run

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- Entry `(r, q)` of the result, from the operands as the call finds them. -/
def GflatAt (c : Dev nD) (r : Fin 12608) (q : Fin 768) : EReal :=
  outRow (fun j => V m c main_v0 (ix2 r j)) (V m c main_v26) (V m c main_v28) (V m c main_v29) (V m c main_v34)
    (V m c main_v30) (V m c main_v35) (V m c main_v39 (ix2 (0 : Fin 1) (0 : Fin 1))) (V m c main_v38 (ix2 (0 : Fin 1) (0 : Fin 1)))
    (V m c main_v40 (ix2 (0 : Fin 1) (0 : Fin 1))) q

/-- The whole flattened result. -/
def Gflat (c : Dev nD) : S12608x768.Idx → EReal :=
  fun i => GflatAt m c ⟨(i 0).val, idx2_lt0 i⟩ ⟨(i 1).val, idx2_lt1 i⟩

end Cert.KernelIdeal.Run

end
-- ==== Proof.RunIdeal.lean ====
import proofs.«141185_j78091095375873_2_alg».proof.Proof.FlatSpec
import Idealize.ShloMosaic.Lib.Pipeline.Value
import Idealize.ShloMosaic.Lib.Pipeline.FrameSuffix

set_option maxRecDepth 16384

/-! # The run of the idealized kernel program

Fifty grid points, each a tile of 256 token rows of the flattened 12608×768 activations; the last tile has only
64 rows inside the array.  The proof data name, for every point, what each staging buffer holds after the body ON
THE ROWS INSIDE THE ARRAY: the activation tile (as fetched), the nine whole-array operands, and for the output the
rows of the flattened result function `Gflat`.  Since a row of the stored tile depends on the same row of the
activation tile only, whatever sits in the rows past the array's end does not reach a row that is written back. -/

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided over the grid -/

/-- Point `t` handles rows `256·t …`: the activation and result windows' block index is `(t, 0)`, the other
    windows' `(0, 0)`; the tile has 256 rows inside the array except the last, which has 64. -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ win0_0.xsize (grid0.coords t) (0 : Fin 2) = (if t.val = 49 then 64 else 256) ∧ win0_0.xsize (grid0.coords t) (1 : Fin 2) = 768
    ∧ win0_10.xsize (grid0.coords t) (0 : Fin 2) = (if t.val = 49 then 64 else 256) ∧ win0_10.xsize (grid0.coords t) (1 : Fin 2) = 768 :=
  (by decide +kernel : ∀ t : Fin grid0.N, _)

theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The operand blocks are the operand arrays -/

/-- Window 1's block is its whole array at every point. -/
theorem iblk1 (c : Dev nD) (t : Fin cfg0.N) : (iblk m c 1 t : S768x3072.Idx → EReal) = (V m c main_v26 : S768x3072.Idx → EReal) := by
  funext y
  unfold iblk
  show V m c main_v26 (((cfg0.win 1).blk t).view.emb y) = V m c main_v26 y
  refine congrArg _ (funext fun a => Fin.ext ?_)
  have e := idx_whole t
  match a with
  | ⟨0, _⟩ => show win0_1.index t (0 : Fin 2) * 768 + 1 * (y 0).val = (y 0).val; omega
  | ⟨1, _⟩ => show win0_1.index t (1 : Fin 2) * 3072 + 1 * (y 1).val = (y 1).val; omega
/-- Window 2's block is its whole array at every point. -/
theorem iblk2 (c : Dev nD) (t : Fin cfg0.N) : (iblk m c 2 t : S3072x768.Idx → EReal) = (V m c main_v28 : S3072x768.Idx → EReal) := by
  funext y
  unfold iblk
  show V m c main_v28 (((cfg0.win 2).blk t).view.emb y) = V m c main_v28 y
  refine congrArg _ (funext fun a => Fin.ext ?_)
  have e := idx_whole t
  match a with
  | ⟨0, _⟩ => show win0_2.index t (0 : Fin 2) * 3072 + 1 * (y 0).val = (y 0).val; omega
  | ⟨1, _⟩ => show win0_2.index t (1 : Fin 2) * 768 + 1 * (y 1).val = (y 1).val; omega
/-- Window 3's block is its whole array at every point. -/
theorem iblk3 (c : Dev nD) (t : Fin cfg0.N) : (iblk m c 3 t : S1x3072.Idx → EReal) = (V m c main_v29 : S1x3072.Idx → EReal) := by
  funext y
  unfold iblk
  show V m c main_v29 (((cfg0.win 3).blk t).view.emb y) = V m c main_v29 y
  refine congrArg _ (funext fun a => Fin.ext ?_)
  have e := idx_whole t
  match a with
  | ⟨0, _⟩ => show win0_3.index t (0 : Fin 2) * 1 + 1 * (y 0).val = (y 0).val; omega
  | ⟨1, _⟩ => show win0_3.index t (1 : Fin 2) * 3072 + 1 * (y 1).val = (y 1).val; omega
/-- Window 4's block is its whole array at every point. -/
theorem iblk4 (c : Dev nD) (t : Fin cfg0.N) : (iblk m c 4 t : S1x768.Idx → EReal) = (V m c main_v30 : S1x768.Idx → EReal) := by
  funext y
  unfold iblk
  show V m c main_v30 (((cfg0.win 4).blk t).view.emb y) = V m c main_v30 y
  refine congrArg _ (funext fun a => Fin.ext ?_)
  have e := idx_whole t
  match a with
  | ⟨0, _⟩ => show win0_4.index t (0 : Fin 2) * 1 + 1 * (y 0).val = (y 0).val; omega
  | ⟨1, _⟩ => show win0_4.index t (1 : Fin 2) * 768 + 1 * (y 1).val = (y 1).val; omega
/-- Window 5's block is its whole array at every point. -/
theorem iblk5 (c : Dev nD) (t : Fin cfg0.N) : (iblk m c 5 t : S1x3072.Idx → EReal) = (V m c main_v34 : S1x3072.Idx → EReal) := by
  funext y
  unfold iblk
  show V m c main_v34 (((cfg0.win 5).blk t).view.emb y) = V m c main_v34 y
  refine congrArg _ (funext fun a => Fin.ext ?_)
  have e := idx_whole t
  match a with
  | ⟨0, _⟩ => show win0_5.index t (0 : Fin 2) * 1 + 1 * (y 0).val = (y 0).val; omega
  | ⟨1, _⟩ => show win0_5.index t (1 : Fin 2) * 3072 + 1 * (y 1).val = (y 1).val; omega
/-- Window 6's block is its whole array at every point. -/
theorem iblk6 (c : Dev nD) (t : Fin cfg0.N) : (iblk m c 6 t : S1x768.Idx → EReal) = (V m c main_v35 : S1x768.Idx → EReal) := by
  funext y
  unfold iblk
  show V m c main_v35 (((cfg0.win 6).blk t).view.emb y) = V m c main_v35 y
  refine congrArg _ (funext fun a => Fin.ext ?_)
  have e := idx_whole t
  match a with
  | ⟨0, _⟩ => show win0_6.index t (0 : Fin 2) * 1 + 1 * (y 0).val = (y 0).val; omega
  | ⟨1, _⟩ => show win0_6.index t (1 : Fin 2) * 768 + 1 * (y 1).val = (y 1).val; omega
/-- Window 7's block is its whole array at every point. -/
theorem iblk7 (c : Dev nD) (t : Fin cfg0.N) : (iblk m c 7 t : S1x1.Idx → EReal) = (V m c main_v39 : S1x1.Idx → EReal) := by
  funext y
  unfold iblk
  show V m c main_v39 (((cfg0.win 7).blk t).view.emb y) = V m c main_v39 y
  refine congrArg _ (funext fun a => Fin.ext ?_)
  have e := idx_whole t
  match a with
  | ⟨0, _⟩ => show win0_7.index t (0 : Fin 2) * 1 + 1 * (y 0).val = (y 0).val; omega
  | ⟨1, _⟩ => show win0_7.index t (1 : Fin 2) * 1 + 1 * (y 1).val = (y 1).val; omega
/-- Window 8's block is its whole array at every point. -/
theorem iblk8 (c : Dev nD) (t : Fin cfg0.N) : (iblk m c 8 t : S1x1.Idx → EReal) = (V m c main_v38 : S1x1.Idx → EReal) := by
  funext y
  unfold iblk
  show V m c main_v38 (((cfg0.win 8).blk t).view.emb y) = V m c main_v38 y
  refine congrArg _ (funext fun a => Fin.ext ?_)
  have e := idx_whole t
  match a with
  | ⟨0, _⟩ => show win0_8.index t (0 : Fin 2) * 1 + 1 * (y 0).val = (y 0).val; omega
  | ⟨1, _⟩ => show win0_8.index t (1 : Fin 2) * 1 + 1 * (y 1).val = (y 1).val; omega
/-- Window 9's block is its whole array at every point. -/
theorem iblk9 (c : Dev nD) (t : Fin cfg0.N) : (iblk m c 9 t : S1x1.Idx → EReal) = (V m c main_v40 : S1x1.Idx → EReal) := by
  funext y
  unfold iblk
  show V m c main_v40 (((cfg0.win 9).blk t).view.emb y) = V m c main_v40 y
  refine congrArg _ (funext fun a => Fin.ext ?_)
  have e := idx_whole t
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- The activation tile as fetched reads, on a row inside the array, the flattened activations' row. -/
theorem tile_row (c : Dev nD) (t : Fin cfg0.N) (d0 : S256x768.Idx → EReal) (p : Fin 256) (j : Fin 768)
    (hp : p.val < win0_0.xsize (grid0.coords t) (0 : Fin 2)) (r : Fin 12608) (hr : r.val = t.val * 256 + p.val) :
    win0_0.fill (grid0.coords t) d0 (iblk m c 0 t) (ix2 p j) = V m c main_v0 (ix2 r j) := by
  have e := idx_facts t
  have hmv : win0_0.moved (grid0.coords t) (ix2 p j) = true := (win0_0.moved_iff _ _).mpr fun a => by
    match a with
    | ⟨0, _⟩ => exact hp
    | ⟨1, _⟩ => show j.val < win0_0.xsize (grid0.coords t) (1 : Fin 2); have := j.isLt; omega
  unfold Window.fill
  rw [dif_pos hmv]
  unfold iblk
  show V m c main_v0 (((cfg0.win 0).blk t).view.emb _) = V m c main_v0 (ix2 r j)
  refine congrArg _ (funext fun a => Fin.ext ?_)
  match a with
  | ⟨0, _⟩ => show win0_0.index t (0 : Fin 2) * 256 + 1 * p.val = r.val; omega
  | ⟨1, _⟩ => show win0_0.index t (1 : Fin 2) * 768 + 1 * j.val = j.val; omega

/-! ## The proof data -/

/-- The proof data of the pipeline on core `c`: the arrays as the call finds them; after the body the activation
    tile as fetched (zero past the array's end), the nine operands' whole arrays, and the output tile at the rows
    of `Gflat` (zero past the array's end). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => win0_10.fill (grid0.coords t) (fun _ => (0 : EReal)) (((cfg0.win 10).blk t).view.read (Elt Ideal) (Gflat m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) :
    (dats m 0 c).after 10 t = win0_10.fill (grid0.coords t) (fun _ => (0 : EReal)) (((cfg0.win 10).blk t).view.read (Elt Ideal) (Gflat m c)) := by dsimp only [dats]

/-- The activation window is fetched at every point: its buffer holds the tile on the rows inside the array and
    words nothing names (`d`) past them. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- The output window is written back at every point: its buffer comes to the body at contents nothing names. -/
theorem before0_10 (c : Dev nD) (t : Fin cfg0.N) (d) : (dats m 0 c).before 10 t d = d :=
  (dats m 0 c).before_out_reset 10 rfl t (by
    rcases Nat.eq_zero_or_pos t.val with h | h
    · exact .inl h
    · exact .inr ⟨by omega, flush0_10 _⟩) d

/-! ## The rows of the stored tile inside the array are the rows of `Gflat` -/

/-- Row `p` of the stored tile, with each staged operand named by what it holds. -/
theorem stored_row_of (x1 : FVec Ideal S256x768 .f32) (x2 : FVec Ideal S768x3072 .bf16) (x3 : FVec Ideal S3072x768 .bf16) (x4 : FVec Ideal S1x3072 .f32) (x5 : FVec Ideal S1x768 .f32) (x6 : FVec Ideal S1x3072 .f32) (x7 : FVec Ideal S1x768 .f32) (x8 : FVec Ideal S1x1 .f32) (x9 : FVec Ideal S1x1 .f32) (x10 : FVec Ideal S1x1 .f32) (p : Fin 256) (q : Fin 768)
    (X : Fin 768 → EReal) (A : FVec Ideal S768x3072 .bf16) (B : FVec Ideal S3072x768 .bf16) (f : FVec Ideal S1x3072 .f32) (f' : FVec Ideal S1x768 .f32)
    (g : FVec Ideal S1x3072 .f32) (g' : FVec Ideal S1x768 .f32) (u1 u2 u3 : FVec Ideal S1x1 .f32)
    (h1 : (fun j : Fin 768 => x1 (ix2 p j)) = X) (h2 : x2 = A) (h3 : x3 = B) (h4 : x4 = f) (h5 : x5 = f') (h6 : x6 = g) (h7 : x7 = g')
    (h8 : x8 = u1) (h9 : x9 = u2) (h10 : x10 = u3) :
    stored (F := Ideal) x1 x2 x3 x4 x5 x6 x7 x8 x9 x10 (ix2 p q)
      = outRow X A B f g f' g' (u1 (ix2 (0 : Fin 1) (0 : Fin 1))) (u2 (ix2 (0 : Fin 1) (0 : Fin 1))) (u3 (ix2 (0 : Fin 1) (0 : Fin 1))) q := by
  subst h1 h2 h3 h4 h5 h6 h7 h8 h9 h10
  exact stored_row x1 x2 x3 x4 x5 x6 x7 x8 x9 x10 p q

theorem tile_inside (c : Dev nD) (t : Fin cfg0.N) (d0 : S256x768.Idx → EReal) :
    win0_10.cut (grid0.coords t) (outTile (F := Ideal) (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t))
      = ((cfg0.win 10).blk t).view.read (Elt Ideal) (Gflat m c) := by
  have e := idx_facts t
  have hN : cfg0.N = 50 := N_0
  have ht : t.val < 50 := hN ▸ t.isLt
  funext y
  have hy0 : (y 0).val < win0_10.xsize (grid0.coords t) (0 : Fin 2) := (y 0).isLt
  have hy1 : (y 1).val < win0_10.xsize (grid0.coords t) (1 : Fin 2) := (y 1).isLt
  have hp : (y 0).val < 256 := by have := e.2.2.2.2.2.2.1; split at this <;> omega
  have hq : (y 1).val < 768 := by omega
  have hr : t.val * 256 + (y 0).val < 12608 := by have := e.2.2.2.2.2.2.1; split at this <;> omega
  rw [outTile_eq]
  show stored (F := Ideal) _ _ _ _ _ _ _ _ _ _ (win0_10.xinj (grid0.coords t) y) = Gflat m c (((cfg0.win 10).blk t).view.emb y)
  have hx : win0_10.xinj (grid0.coords t) y = ix2 (⟨(y 0).val, hp⟩ : Fin 256) (⟨(y 1).val, hq⟩ : Fin 768) := by
    funext a; apply Fin.ext
    match a with
    | ⟨0, _⟩ => rfl
    | ⟨1, _⟩ => rfl
  have hemb : ((cfg0.win 10).blk t).view.emb y = ix2 (⟨t.val * 256 + (y 0).val, hr⟩ : Fin 12608) (⟨(y 1).val, hq⟩ : Fin 768) := by
    funext a; apply Fin.ext
    match a with
    | ⟨0, _⟩ => show win0_10.index t (0 : Fin 2) * 256 + 1 * (y 0).val = t.val * 256 + (y 0).val; omega
    | ⟨1, _⟩ => show win0_10.index t (1 : Fin 2) * 768 + 1 * (y 1).val = (y 1).val; omega
  rw [hx, hemb]
  unfold Gflat GflatAt
  have hrow : (fun j : Fin 768 => win0_0.fill (grid0.coords t) d0 (iblk m c 0 t) (ix2 (⟨(y 0).val, hp⟩ : Fin 256) j))
      = fun j : Fin 768 => V m c main_v0 (ix2 (⟨t.val * 256 + (y 0).val, hr⟩ : Fin 12608) j) := funext fun j =>
    tile_row m c t d0 ⟨(y 0).val, hp⟩ j (by show (y 0).val < _; omega) ⟨t.val * 256 + (y 0).val, hr⟩ rfl
  refine (stored_row_of _ _ _ _ _ _ _ _ _ _ _ _ _ _ _ _ _ _ _ _ _ _ hrow (iblk1 m c t) (iblk2 m c t) (iblk3 m c t) (iblk4 m c t)
    (iblk5 m c t) (iblk6 m c t) (iblk7 m c t) (iblk8 m c t) (iblk9 m c t)).trans ?_
  rfl

/-! ## The body obligation -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the two windows whose last block hangs over the array are stated on the rows inside the
    array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare (win0_10.fill (grid0.coords t) d (win0_10.cut (grid0.coords t) ((dats m 0 c).after 10 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (F := Ideal) c Set.univ (grid0.coords t) _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists (outTile (F := Ideal) (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t))
  rw [← tile_inside m c t d0, Window.fill_cut]
  iexact H10

/-- The library's body obligation (the form for windows whose edge blocks are cut), at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates without fault; every array of the pipeline ends at what the
    library computes from the proof data, every other buffer as the host line after the call leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the idealized kernel program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-! ## The result array after the run -/

/-- What point `t` writes back is block `t` of `Gflat`. -/
theorem flushed_eq (c : Dev nD) (t : Fin cfg0.N) :
    (dats m 0 c).flushed 10 t = ((cfg0.win 10).blk t).view.read (Elt Ideal) (Gflat m c) := by
  show (cfg0.win 10).cut (grid0.coords t) ((dats m 0 c).after 10 t) = _
  rw [after0_10]
  exact win0_10.cut_fill _ _ _

/-- An index of the flattened result is in point `t`'s block iff each coordinate is in the block's range. -/
theorem mem_blk (t : Fin cfg0.N) (i : S12608x768.Idx) :
    i ∈ ((cfg0.win 10).blk t).view.set ↔ ∀ a : Fin 2, win0_10.index t a * S256x768.size a ≤ (i a).val
      ∧ (i a).val < win0_10.index t a * S256x768.size a + win0_10.xsize (grid0.coords t) a := by
  show i ∈ ((View.whole main_v41).slice (win0_10.rect t)).set ↔ _
  rw [View.set_slice_whole, Rect.mem_set_unit]
  exact Iff.rfl

/-- Row `r` lies in the block of point `r / 256`: the fifty blocks cover the array. -/
theorem cover (i : S12608x768.Idx) : ∃ t : Fin cfg0.N, (cfg0.win 10).flush t = true ∧ i ∈ ((cfg0.win 10).blk t).view.set := by
  have hi0 : (i 0).val < 12608 := idx2_lt0 i
  have hi1 : (i 1).val < 768 := idx2_lt1 i
  have hN : cfg0.N = 50 := N_0
  let t : Fin cfg0.N := ⟨(i 0).val / 256, by rw [hN]; omega⟩
  have htv : t.val = (i 0).val / 256 := rfl
  have e := idx_facts t
  refine ⟨t, flush0_10 t, ?_⟩
  rw [mem_blk]
  intro a
  match a with
  | ⟨0, _⟩ =>
    show win0_10.index t (0 : Fin 2) * 256 ≤ (i 0).val ∧ (i 0).val < win0_10.index t (0 : Fin 2) * 256 + win0_10.xsize (grid0.coords t) (0 : Fin 2)
    have := e.2.2.2.2.2.2.1
    split at this <;> omega
  | ⟨1, _⟩ =>
    show win0_10.index t (1 : Fin 2) * 768 ≤ (i 1).val ∧ (i 1).val < win0_10.index t (1 : Fin 2) * 768 + win0_10.xsize (grid0.coords t) (1 : Fin 2)
    omega

/-- The result array of the call ends holding `Gflat`. -/
theorem final (c : Dev nD) : (dats m 0 c).arrAt 10 cfg0.N = Gflat m c :=
  (dats m 0 c).arrAt_eq_of_cover 10 (Gflat m c) (fun t _ => flushed_eq m c t) (cover)

end Cert.KernelIdeal.Run

end
-- ==== Proof.KernelValue.lean ====
import proofs.«141185_j78091095375873_2_alg».proof.Proof.RunIdeal
import Idealize.ShloMosaic.Lib.StableHlo.Run

set_option maxRecDepth 16384

/-! # The kernel program's result

After the call one host line reshapes the flattened 12608×768 result to [64, 197, 768]: the program's result is
that reshape of `Gflat`. -/

noncomputable section

namespace Cert.KernelIdeal.Run

open Cert.KernelIdeal Cert.KernelIdeal.Gen Cert.KernelIdeal.Body
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- What the call's result array holds when the last host line runs. -/
theorem exit_v41 (c : Dev nD) :
    Pipeline.withArrays spec0 c (V0 m c) (fun w => (dats m 0 c).arrAt w cfg0.N) (Proc.devRef .tc main_v41) = Gflat m c :=
  (Pipeline.withArrays_arr spec0 launch0.win.arr_inj c (V0 m c) (fun w => (dats m 0 c).arrAt w cfg0.N) 10).trans (final m c)

/-- The program's result buffer after the last host line. -/
theorem tail_value (c : Dev nD) :
    Pipeline.afterTail₀ cfgs (dats m) 0 (V0 m) [hostOps1] c main_v42
      = shapeCast S64x197x768 (Gflat m c) shapeCasts_S12608x768_S64x197x768 := by
  unfold Pipeline.afterTail₀
  show StableHlo.after hostOps1 (Pipeline.withArrays spec0 c (V0 m c) (fun w => (dats m 0 c).arrAt w cfg0.N)) (Proc.devRef .tc main_v42) = _
  after_results
  rw [exit_v41]
  rfl

/-- The run of the idealized kernel program with its result named: the result buffer ends at the reshape of
    `Gflat`, the arguments unchanged. -/
theorem run_value : θ_run defs (onTc (τ := τ) (main (F := Ideal))) ⟨m, fun _ => 0, ρ⟩ (fun r => ∀ c : Dev nD,
      r.2.mem ((c.tc : Thread nD τ).loc main_v42) = shapeCast S64x197x768 (Gflat m c) shapeCasts_S12608x768_S64x197x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v42 (Pipeline.mem_restRefs_of main_v42 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Run

end
-- ==== Proof.HostSide.lean ====
import proofs.«141185_j78091095375873_2_alg».proof.Proof.FlatSpec
import proofs.«141185_j78091095375873_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

/-! # The staged arrays are the specification's pieces

Before the call the program prepares ten arrays from its ten arguments: the tokens flattened to 12608 rows; the two
matrices of centred signs, transposed (and converted to a narrower format, which changes nothing on the extended
reals); the two columns of row scales turned into rows; the first bias as a row with the shift s₆ added; the second
bias as a row; the shift s₅; the sum of the shifts s₇ and s₈; the slope.  Read entry by entry these are exactly the
pieces the specification is written with, so the token function of row b·197 + n of the staged arrays is the
specification's entry at token (b, n), and the flattened result, reshaped to [64, 197, 768], is the specification. -/

noncomputable section

namespace Cert.KernelIdeal.Host

open Cert.KernelIdeal Cert.KernelIdeal.Gen Cert.KernelIdeal.Body Cert.KernelIdeal.Run Idealize.ShloMosaic Idealize.ShloMosaic.TcCoe Idealize.ShloMosaic.ValueIdx Idealize.SL.Sem

variable (m : (ℓ : Loc nD τ sig) → Buf (Elt Ideal) ℓ) (c : Dev nD)

/-! ## The ten arguments, as arrays of extended reals -/

abbrev aX : FVec Ideal Cert.Spec.SX .f32 := m ((c : Thread nD τ).loc main_arg0)
abbrev aW1 : FVec Ideal Cert.Spec.SW1 .f32 := m ((c : Thread nD τ).loc main_arg1)
abbrev aB1 : FVec Ideal Cert.Spec.SB1 .f32 := m ((c : Thread nD τ).loc main_arg2)
abbrev aW2 : FVec Ideal Cert.Spec.SW2 .f32 := m ((c : Thread nD τ).loc main_arg3)
abbrev aB2 : FVec Ideal Cert.Spec.SB2 .f32 := m ((c : Thread nD τ).loc main_arg4)
abbrev aS5 : FVec Ideal Cert.Spec.S111 .f32 := m ((c : Thread nD τ).loc main_arg5)
abbrev aS6 : FVec Ideal Cert.Spec.S111 .f32 := m ((c : Thread nD τ).loc main_arg6)
abbrev aS7 : FVec Ideal Cert.Spec.S111 .f32 := m ((c : Thread nD τ).loc main_arg7)
abbrev aS8 : FVec Ideal Cert.Spec.S111 .f32 := m ((c : Thread nD τ).loc main_arg8)
abbrev aA9 : FVec Ideal Cert.Spec.SOne .f32 := m ((c : Thread nD τ).loc main_arg9)

/-! ## Each staged array as a term of the arguments -/

/-- The tokens, flattened to rows. -/
theorem V_v0 : (V m c main_v0 : S12608x768.Idx → EReal)
    = shapeCast S12608x768 (aX m c) shapeCasts_S64x197x768_S12608x768 := by
  show StableHlo.after hostOps0 (fun b => m (c, b)) (Proc.devRef .tc main_v0) = _
  after_results_simp
  rfl

/-- The first layer's centred signs, transposed. -/
theorem V_v26 : (V m c main_v26 : S768x3072.Idx → EReal)
    = truncf .bf16 (transpose S768x3072 [1, 0] (Cert.Spec.signs1 (aW1 m c)) transposes_S3072x768_S768x3072_1_0) bitsLt_bf16_f32 := by
  show StableHlo.after hostOps0 (fun b => m (c, b)) (Proc.devRef .tc main_v26) = _
  after_results_simp
  rfl

/-- The second layer's centred signs, transposed. -/
theorem V_v28 : (V m c main_v28 : S3072x768.Idx → EReal)
    = truncf .bf16 (transpose S3072x768 [1, 0] (Cert.Spec.signs2 (aW2 m c)) transposes_S768x3072_S3072x768_1_0) bitsLt_bf16_f32 := by
  show StableHlo.after hostOps0 (fun b => m (c, b)) (Proc.devRef .tc main_v28) = _
  after_results_simp
  rfl

/-- The first layer's row scales, as a row. -/
theorem V_v29 : (V m c main_v29 : S1x3072.Idx → EReal)
    = shapeCast S1x3072 (Cert.Spec.scale1 (aW1 m c)) shapeCasts_S3072x1_S1x3072 := by
  show StableHlo.after hostOps0 (fun b => m (c, b)) (Proc.devRef .tc main_v29) = _
  after_results_simp
  rfl

/-- The second layer's row scales, as a row. -/
theorem V_v30 : (V m c main_v30 : S1x768.Idx → EReal)
    = shapeCast S1x768 (Cert.Spec.scale2 (aW2 m c)) shapeCasts_S768x1_S1x768 := by
  show StableHlo.after hostOps0 (fun b => m (c, b)) (Proc.devRef .tc main_v30) = _
  after_results_simp
  rfl

/-- The first bias as a row, the shift s₆ added to every entry. -/
theorem V_v34 : (V m c main_v34 : S1x3072.Idx → EReal)
    = addf (shapeCast S1x3072 (aB1 m c) shapeCasts_S3072_S1x3072)
        (broadcastInDim S1x3072 ![0, 1] bcast_S1x1_S1x3072_0_1 (shapeCast S1x1 (aS6 m c) shapeCasts_S1x1x1_S1x1)) := by
  show StableHlo.after hostOps0 (fun b => m (c, b)) (Proc.devRef .tc main_v34) = _
  after_results_simp
  rfl

/-- The second bias as a row. -/
theorem V_v35 : (V m c main_v35 : S1x768.Idx → EReal) = shapeCast S1x768 (aB2 m c) shapeCasts_S768_S1x768 := by
  show StableHlo.after hostOps0 (fun b => m (c, b)) (Proc.devRef .tc main_v35) = _
  after_results_simp
  rfl

/-- The shift s₅. -/
theorem V_v39 : (V m c main_v39 : S1x1.Idx → EReal) = shapeCast S1x1 (aS5 m c) shapeCasts_S1x1x1_S1x1 := by
  show StableHlo.after hostOps0 (fun b => m (c, b)) (Proc.devRef .tc main_v39) = _
  after_results_simp
  rfl

/-- The sum of the shifts s₇ and s₈. -/
theorem V_v38 : (V m c main_v38 : S1x1.Idx → EReal)
    = addf (shapeCast S1x1 (aS7 m c) shapeCasts_S1x1x1_S1x1) (shapeCast S1x1 (aS8 m c) shapeCasts_S1x1x1_S1x1) := by
  show StableHlo.after hostOps0 (fun b => m (c, b)) (Proc.devRef .tc main_v38) = _
  after_results_simp
  rfl

/-- The slope. -/
theorem V_v40 : (V m c main_v40 : S1x1.Idx → EReal) = shapeCast S1x1 (aA9 m c) shapeCasts_S1_S1x1 := by
  show StableHlo.after hostOps0 (fun b => m (c, b)) (Proc.devRef .tc main_v40) = _
  after_results_simp
  rfl

/-! ## The staged arrays read at an entry -/

/-- A [1,1,1] array as a [1,1] array: its one entry. -/
theorem shapeCast_111_11 (s : FVec Ideal S1x1x1 .f32) (h : S1x1x1.ShapeCasts S1x1) :
    shapeCast S1x1 s h (ix2 (0 : Fin 1) (0 : Fin 1)) = s (ix3 (0 : Fin 1) (0 : Fin 1) (0 : Fin 1)) :=
  shapeCast_apply s h _ _ (by rw [Shape.rowMajor_val_three, Shape.rowMajor_val_two]; rfl)

/-- Row r = b·197 + n of the flattened tokens is token (b, n). -/
theorem read_x (r : Fin 12608) (b : Fin 64) (n : Fin 197) (hr : r.val = b.val * 197 + n.val) (j : Fin 768) :
    V m c main_v0 (ix2 r j) = aX m c (ix3 b n j) :=
  (congrFun (V_v0 m c) (ix2 r j)).trans (shapeCast_apply _ _ _ _ (by
    rw [Shape.rowMajor_val_three, Shape.rowMajor_val_two]
    show (b.val * 197 + n.val) * 768 + j.val = r.val * 768 + j.val
    rw [hr]))

theorem read_A (j : Fin 768) (k : Fin 3072) : V m c main_v26 (ix2 j k) = Cert.Spec.signs1 (aW1 m c) (ix2 k j) :=
  (congrFun (V_v26 m c) (ix2 j k)).trans
    (transpose_ix2_apply (Cert.Spec.signs1 (aW1 m c)) transposes_S3072x768_S768x3072_1_0 j k)

theorem read_B (k : Fin 3072) (q : Fin 768) : V m c main_v28 (ix2 k q) = Cert.Spec.signs2 (aW2 m c) (ix2 q k) :=
  (congrFun (V_v28 m c) (ix2 k q)).trans
    (transpose_ix2_apply (Cert.Spec.signs2 (aW2 m c)) transposes_S768x3072_S3072x768_1_0 k q)

theorem read_f (k : Fin 3072) : V m c main_v29 (ix2 (0 : Fin 1) k) = Cert.Spec.scale1 (aW1 m c) (ix2 k (0 : Fin 1)) :=
  (congrFun (V_v29 m c) (ix2 (0 : Fin 1) k)).trans (shapeCast_apply _ _ _ _ (by
    rw [Shape.rowMajor_val_two, Shape.rowMajor_val_two]
    show k.val * 1 + 0 = 0 * 3072 + k.val
    omega))

theorem read_f' (q : Fin 768) : V m c main_v30 (ix2 (0 : Fin 1) q) = Cert.Spec.scale2 (aW2 m c) (ix2 q (0 : Fin 1)) :=
  (congrFun (V_v30 m c) (ix2 (0 : Fin 1) q)).trans (shapeCast_apply _ _ _ _ (by
    rw [Shape.rowMajor_val_two, Shape.rowMajor_val_two]
    show q.val * 1 + 0 = 0 * 768 + q.val
    omega))

theorem read_g (k : Fin 3072) :
    V m c main_v34 (ix2 (0 : Fin 1) k) = aB1 m c (ix1 k) + aS6 m c (ix3 (0 : Fin 1) (0 : Fin 1) (0 : Fin 1)) := by
  refine (congrFun (V_v34 m c) (ix2 (0 : Fin 1) k)).trans ?_
  show shapeCast S1x3072 (aB1 m c) shapeCasts_S3072_S1x3072 (ix2 (0 : Fin 1) k)
      + broadcastInDim S1x3072 ![0, 1] bcast_S1x1_S1x3072_0_1 (shapeCast S1x1 (aS6 m c) shapeCasts_S1x1x1_S1x1) (ix2 (0 : Fin 1) k) = _
  rw [shapeCast_a_1a_apply,
    broadcastInDim_apply ![0, 1] bcast_S1x1_S1x3072_0_1 _ (ix2 (0 : Fin 1) k) (ix2 (0 : Fin 1) (0 : Fin 1))
      (fun a => by match a with | ⟨0, _⟩ => rfl | ⟨1, _⟩ => rfl),
    shapeCast_111_11]

theorem read_g' (q : Fin 768) : V m c main_v35 (ix2 (0 : Fin 1) q) = aB2 m c (ix1 q) :=
  (congrFun (V_v35 m c) (ix2 (0 : Fin 1) q)).trans (shapeCast_a_1a_apply _ _ _ _)

theorem read_s1 : V m c main_v39 (ix2 (0 : Fin 1) (0 : Fin 1)) = aS5 m c (ix3 (0 : Fin 1) (0 : Fin 1) (0 : Fin 1)) :=
  (congrFun (V_v39 m c) (ix2 (0 : Fin 1) (0 : Fin 1))).trans (shapeCast_111_11 _ _)

theorem read_s2 : V m c main_v38 (ix2 (0 : Fin 1) (0 : Fin 1))
    = aS7 m c (ix3 (0 : Fin 1) (0 : Fin 1) (0 : Fin 1)) + aS8 m c (ix3 (0 : Fin 1) (0 : Fin 1) (0 : Fin 1)) := by
  refine (congrFun (V_v38 m c) (ix2 (0 : Fin 1) (0 : Fin 1))).trans ?_
  show shapeCast S1x1 (aS7 m c) shapeCasts_S1x1x1_S1x1 (ix2 (0 : Fin 1) (0 : Fin 1))
      + shapeCast S1x1 (aS8 m c) shapeCasts_S1x1x1_S1x1 (ix2 (0 : Fin 1) (0 : Fin 1)) = _
  rw [shapeCast_111_11, shapeCast_111_11]

theorem read_a : V m c main_v40 (ix2 (0 : Fin 1) (0 : Fin 1)) = aA9 m c (ix1 (0 : Fin 1)) :=
  (congrFun (V_v40 m c) (ix2 (0 : Fin 1) (0 : Fin 1))).trans (shapeCast_a_1a_apply _ _ _ _)

/-! ## The token function of the staged arrays is the specification's entry -/

/-- With the staged pieces read as the specification's pieces, one token's output channel is the specification's
    entry: the two formulas agree term by term, the kernel's spelling of the sign being the sign. -/
theorem outRow_eq_outAt (x : FVec Ideal Cert.Spec.SX .f32) (w1 : FVec Ideal Cert.Spec.SW1 .f32) (b1 : FVec Ideal Cert.Spec.SB1 .f32)
    (w2 : FVec Ideal Cert.Spec.SW2 .f32) (b2 : FVec Ideal Cert.Spec.SB2 .f32) (s5 s6 s7 s8 : FVec Ideal Cert.Spec.S111 .f32)
    (a9 : FVec Ideal Cert.Spec.SOne .f32)
    (xr : Fin 768 → EReal) (A : FVec Ideal S768x3072 .bf16) (B : FVec Ideal S3072x768 .bf16) (f g : FVec Ideal S1x3072 .f32)
    (f' g' : FVec Ideal S1x768 .f32) (s1 s2 a : EReal) (b : Fin 64) (n : Fin 197) (q : Fin 768)
    (hxr : ∀ j, xr j = x (ix3 b n j))
    (hA : ∀ j k, A (ix2 j k) = Cert.Spec.signs1 w1 (ix2 k j))
    (hB : ∀ k q, B (ix2 k q) = Cert.Spec.signs2 w2 (ix2 q k))
    (hf : ∀ k, f (ix2 (0 : Fin 1) k) = Cert.Spec.scale1 w1 (ix2 k (0 : Fin 1)))
    (hg : ∀ k, g (ix2 (0 : Fin 1) k) = b1 (ix1 k) + s6 (ix3 (0 : Fin 1) (0 : Fin 1) (0 : Fin 1)))
    (hf' : ∀ q, f' (ix2 (0 : Fin 1) q) = Cert.Spec.scale2 w2 (ix2 q (0 : Fin 1)))
    (hg' : ∀ q, g' (ix2 (0 : Fin 1) q) = b2 (ix1 q))
    (hs1 : s1 = s5 (ix3 (0 : Fin 1) (0 : Fin 1) (0 : Fin 1)))
    (hs2 : s2 = s7 (ix3 (0 : Fin 1) (0 : Fin 1) (0 : Fin 1)) + s8 (ix3 (0 : Fin 1) (0 : Fin 1) (0 : Fin 1)))
    (ha : a = a9 (ix1 (0 : Fin 1))) :
    outRow xr A B f g f' g' s1 s2 a q = Cert.Spec.outAt x w1 b1 w2 b2 s5 s6 s7 s8 a9 b n q := by
  subst hs1 hs2 ha
  unfold outRow hidRow Cert.Spec.outAt Cert.Spec.hid
  simp only [hxr, hA, hB, hf, hg, hf', hg', Cert.Spec.ksign_eq_sign]

/-- Entry (r, q) of the flattened result, r = b·197 + n, is the specification's entry at token (b, n), channel q. -/
theorem gflatAt_eq (r : Fin 12608) (b : Fin 64) (n : Fin 197) (hr : r.val = b.val * 197 + n.val) (q : Fin 768) :
    GflatAt m c r q
      = Cert.Spec.outAt (aX m c) (aW1 m c) (aB1 m c) (aW2 m c) (aB2 m c) (aS5 m c) (aS6 m c) (aS7 m c) (aS8 m c) (aA9 m c) b n q := by
  unfold GflatAt
  exact outRow_eq_outAt (aX m c) (aW1 m c) (aB1 m c) (aW2 m c) (aB2 m c) (aS5 m c) (aS6 m c) (aS7 m c) (aS8 m c) (aA9 m c)
    _ _ _ _ _ _ _ _ _ _ b n q
    (fun j => read_x m c r b n hr j) (read_A m c) (read_B m c) (read_f m c) (read_g m c) (read_f' m c) (read_g' m c)
    (read_s1 m c) (read_s2 m c) (read_a m c)

/-- The flattened result, reshaped to [64, 197, 768], is the specification of the arguments. -/
theorem gflat_eq (m : (ℓ : Loc nD τ sig) → Buf (Elt Ideal) ℓ) (c : Dev nD) :
    shapeCast S64x197x768 (Gflat m c) shapeCasts_S12608x768_S64x197x768
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨b, n, q, rfl⟩ : ∃ (b : Fin 64) (n : Fin 197) (q : Fin 768), i = ix3 b n q := ⟨i 0, i 1, i 2, eq_ix3 i⟩
  have hlt : b.val * 197 + n.val < 12608 := by
    have := b.isLt; have := n.isLt; omega
  refine (shapeCast_apply (Gflat m c) shapeCasts_S12608x768_S64x197x768 (ix3 b n q) (ix2 ⟨b.val * 197 + n.val, hlt⟩ q) (by
    rw [Shape.rowMajor_val_two, Shape.rowMajor_val_three]; rfl)).trans ?_
  exact gflatAt_eq m c ⟨b.val * 197 + n.val, hlt⟩ b n rfl q

end Cert.KernelIdeal.Host

end
-- ==== Proof.RefValue.lean ====
import proofs.«141185_j78091095375873_2_alg».proof.Proof.Gen.ReferenceIdeal.Read
import proofs.«141185_j78091095375873_2_alg».proof.Proof.Spec

/-! # The reference program computes the specification

The reference quantises a linear layer with a straight-through estimator: it feeds the contraction
(sign a − clip a) + clip a in place of sign a, and (sf · sign w − clip w) + clip w in place of sf · sign w,
where clip y = min 1 (max (−1) y). On the extended reals clip y is always a real number and (u − r) + r = u
for every extended real u and every real r, so the two detours vanish; and since the row scale sf is a real
number it can be pulled out of the contraction. What is left is the specification's two layers. -/

noncomputable section

namespace Cert.RefValue

open Idealize.ShloMosaic Idealize.ShloMosaic.ValueIdx Cert.RealValued Cert.Spec

/-! ## Scalars -/

theorem isReal_min {x y : EReal} (hx : IsReal x) (hy : IsReal y) : IsReal (min x y) := by
  rcases min_choice x y with h | h <;> rw [h] <;> assumption

theorem isReal_max {x y : EReal} (hx : IsReal x) (hy : IsReal y) : IsReal (max x y) := by
  rcases max_choice x y with h | h <;> rw [h] <;> assumption

/-- Clipping to [−1, 1] lands in the real numbers, whatever is clipped. -/
theorem isReal_clip (y : EReal) :
    IsReal (min (Ideal.ofBits .f32 0x3F800000#32) (max (Ideal.ofBits .f32 0xBF800000#32) y)) := by
  rw [ofBits_one, ofBits_neg_one]
  induction y using EReal.rec with
  | bot => rw [max_bot_right]; exact isReal_min (isReal_coe 1) (isReal_coe (-1))
  | coe r => exact isReal_min (isReal_coe 1) (isReal_max (isReal_coe (-1)) (isReal_coe r))
  | top => rw [max_top_right, min_top_right]; exact isReal_coe 1

/-- Subtracting a real number and adding it back changes nothing, also at the infinities. -/
theorem sub_add_cancel_of_isReal (u : EReal) {r : EReal} (hr : IsReal r) : (u - r) + r = u := by
  obtain ⟨c, rfl⟩ := hr
  induction u using EReal.rec with
  | bot => rw [EReal.bot_sub, EReal.bot_add]
  | coe a => rw [← EReal.coe_sub, ← EReal.coe_add, sub_add_cancel]
  | top => rw [EReal.top_sub_coe, EReal.top_add_coe]

/-- The coercion of a finite sum of real numbers is the sum of the coercions. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- One quantised layer's contraction: the straight-through detours vanish and the real row scale comes out. -/
theorem layer_sum {ι : Type*} [Fintype ι] (a ci cw t : ι → EReal) (sf : EReal)
    (hci : ∀ j, IsReal (ci j)) (hcw : ∀ j, IsReal (cw j)) (ht : ∀ j, IsReal (t j)) (hsf : IsReal sf) :
    ∑ j, ((Ideal.sign (a j) - ci j) + ci j) * ((sf * t j - cw j) + cw j) = (∑ j, Ideal.sign (a j) * t j) * sf := by
  obtain ⟨s, rfl⟩ := hsf
  choose τ hτ using ht
  choose σ hσ using fun j => isReal_sign (a j)
  have e1 : ∀ j, ((Ideal.sign (a j) - ci j) + ci j) * (((s : EReal) * t j - cw j) + cw j) = ((σ j * τ j * s : ℝ) : EReal) := by
    intro j
    rw [sub_add_cancel_of_isReal _ (hci j), sub_add_cancel_of_isReal _ (hcw j), hσ j, hτ j, ← EReal.coe_mul, ← EReal.coe_mul]
    exact congrArg _ (by ring)
  have e2 : ∀ j, Ideal.sign (a j) * t j = ((σ j * τ j : ℝ) : EReal) := by
    intro j; rw [hσ j, hτ j, ← EReal.coe_mul]
  rw [Finset.sum_congr rfl fun j _ => e1 j, Finset.sum_congr rfl fun j _ => e2 j, ← coe_sum, ← coe_sum, ← EReal.coe_mul,
    Finset.sum_mul]

/-! ## The reference's stages at an index -/

open Cert.ReferenceIdeal Cert.ReferenceIdeal.Read

/-- Clipping to [−1, 1], as the reference spells it. -/
def clip (y : EReal) : EReal := min (Ideal.ofBits .f32 0x3F800000#32) (max (Ideal.ofBits .f32 0xBF800000#32) y)

theorem isReal_clip' (y : EReal) : IsReal (clip y) := isReal_clip y

/-! The weights' preprocessing is the same chain of host operations on both sides. -/

theorem signs1_eq (x1 : FVec Ideal SW1 .f32) : val_main_v13 (F := Ideal) x1 = signs1 x1 := rfl
theorem scale1_eq (x1 : FVec Ideal SW1 .f32) : val_main_v6 (F := Ideal) x1 = scale1 x1 := rfl
theorem signs2_eq (x3 : FVec Ideal SW2 .f32) : val_main_v50 (F := Ideal) x3 = signs2 x3 := rfl
theorem scale2_eq (x3 : FVec Ideal SW2 .f32) : val_main_v43 (F := Ideal) x3 = scale2 x3 := rfl

theorem isReal_signs1 (x1 : FVec Ideal SW1 .f32) (i : SW1.Idx) : IsReal (signs1 x1 i) := isReal_sign _
theorem isReal_signs2 (x3 : FVec Ideal SW2 .f32) (i : SW2.Idx) : IsReal (signs2 x3 i) := isReal_sign _

/-- The first layer's straight-through weight at (k, j). -/
theorem weight1_apply (x1 : FVec Ideal SW1 .f32) (k : Fin 3072) (j : Fin 768) :
    val_main_v18 (F := Ideal) x1 (ix2 k j)
      = (scale1 x1 (ix2 k 0) * signs1 x1 (ix2 k j) - clip (val_main_v12 (F := Ideal) x1 (ix2 k j)))
          + clip (val_main_v12 (F := Ideal) x1 (ix2 k j)) := by
  have e : idx_main_v14 (ix2 k j) = ix2 k 0 := funext fun a => by match a with | ⟨0, _⟩ => rfl | ⟨1, _⟩ => rfl
  rw [val_main_v18_apply, val_main_v17_apply, val_main_v16_apply, val_main_v15_apply, val_main_v14_apply, e,
    val_main_call0_v4_apply, val_main_call0_v3_apply, val_main_cst_4_apply, val_main_call0_v2_apply, val_main_call0_v1_apply,
    val_main_call0_v0_apply, val_main_cst_3_apply, scale1_eq, signs1_eq]
  rfl

/-- The first layer's straight-through activation at an index. -/
theorem act1_apply (x0 : FVec Ideal SX .f32) (x5 : FVec Ideal S111 .f32) (i : SX.Idx) :
    val_main_v22 (F := Ideal) x0 x5 i
      = (Ideal.sign (x0 i + x5 (ix3 0 0 0)) - clip (x0 i + x5 (ix3 0 0 0))) + clip (x0 i + x5 (ix3 0 0 0)) := by
  have e : idx_main_v0 i = ix3 0 0 0 := funext fun a => by match a with | ⟨0, _⟩ => rfl | ⟨1, _⟩ => rfl | ⟨2, _⟩ => rfl
  rw [val_main_v22_apply, val_main_v21_apply, val_main_v20_apply, val_main_v19_apply, val_main_call1_v4_apply,
    val_main_call1_v3_apply, val_main_cst_6_apply, val_main_call1_v2_apply, val_main_call1_v1_apply, val_main_call1_v0_apply,
    val_main_cst_5_apply, val_main_v1_apply, val_main_v0_apply, e]
  rfl

/-- The first layer's contraction: the sum of the sign products, times the row's scale. -/
theorem dot1_apply (x0 : FVec Ideal SX .f32) (x1 : FVec Ideal SW1 .f32) (x5 : FVec Ideal S111 .f32)
    (h1 : ∀ i, IsReal (scale1 x1 i)) (b : Fin 64) (n : Fin 197) (k : Fin 3072) :
    val_main_v23 (F := Ideal) x0 x1 x5 (ix3 b n k)
      = (∑ j : Fin 768, Ideal.sign (x0 (ix3 b n j) + x5 (ix3 0 0 0)) * signs1 x1 (ix2 k j)) * scale1 x1 (ix2 k 0) := by
  have el : ∀ j : Fin 768, lidx_main_v23 (ix3 b n k) j = ix3 b n j := fun j =>
    funext fun a => by match a with | ⟨0, _⟩ => rfl | ⟨1, _⟩ => rfl | ⟨2, _⟩ => rfl
  have er : ∀ j : Fin 768, ridx_main_v23 (ix3 b n k) j = ix2 k j := fun j =>
    funext fun a => by match a with | ⟨0, _⟩ => rfl | ⟨1, _⟩ => rfl
  rw [val_main_v23_apply]
  refine (Finset.sum_congr rfl fun j _ => ?_).trans
    (layer_sum (fun j : Fin 768 => x0 (ix3 b n j) + x5 (ix3 0 0 0)) (fun j => clip (x0 (ix3 b n j) + x5 (ix3 0 0 0)))
      (fun j => clip (val_main_v12 (F := Ideal) x1 (ix2 k j))) (fun j => signs1 x1 (ix2 k j)) (scale1 x1 (ix2 k 0))
      (fun _ => isReal_clip' _) (fun _ => isReal_clip' _) (fun _ => isReal_signs1 _ _) (h1 _))
  rw [el j, er j, act1_apply, weight1_apply]

/-- The first layer before the rectifier: the contraction plus the bias and the first shift. -/
theorem pre1_apply (x0 : FVec Ideal SX .f32) (x1 : FVec Ideal SW1 .f32) (x2 : FVec Ideal SB1 .f32) (x5 x6 : FVec Ideal S111 .f32)
    (h1 : ∀ i, IsReal (scale1 x1 i)) (b : Fin 64) (n : Fin 197) (k : Fin 3072) :
    val_main_v28 (F := Ideal) x0 x1 x2 x5 x6 (ix3 b n k)
      = (∑ j : Fin 768, Ideal.sign (x0 (ix3 b n j) + x5 (ix3 0 0 0)) * signs1 x1 (ix2 k j)) * scale1 x1 (ix2 k 0)
          + (x2 (ix1 k) + x6 (ix3 0 0 0)) := by
  have e25 : idx_main_v24 (idx_main_v25 (ix3 b n k)) = ix1 k := funext fun a => by match a with | ⟨0, _⟩ => rfl
  have e27 : idx_main_v27 (ix3 b n k) = ix3 0 0 0 :=
    funext fun a => by match a with | ⟨0, _⟩ => rfl | ⟨1, _⟩ => rfl | ⟨2, _⟩ => rfl
  rw [val_main_v28_apply, val_main_v26_apply, val_main_v25_apply, val_main_v24_apply, e25, val_main_v27_apply, e27,
    dot1_apply x0 x1 x5 h1]
  exact add_assoc _ _ _

/-- The hidden activation: the reference's stage after the rectifier and the two shifts is the specification's. -/
theorem hid_apply (x0 : FVec Ideal SX .f32) (x1 : FVec Ideal SW1 .f32) (x2 : FVec Ideal SB1 .f32)
    (x5 x6 x7 x8 : FVec Ideal S111 .f32) (x9 : FVec Ideal SOne .f32)
    (h1 : ∀ i, IsReal (scale1 x1 i)) (b : Fin 64) (n : Fin 197) (k : Fin 3072) :
    val_main_v38 (F := Ideal) x0 x1 x2 x5 x6 x7 x8 x9 (ix3 b n k) = hid x0 x1 x2 x5 x6 x7 x8 x9 b n k := by
  have e35 : idx_main_v35 (ix3 b n k) = ix3 0 0 0 :=
    funext fun a => by match a with | ⟨0, _⟩ => rfl | ⟨1, _⟩ => rfl | ⟨2, _⟩ => rfl
  have e37 : idx_main_v37 (ix3 b n k) = ix3 0 0 0 :=
    funext fun a => by match a with | ⟨0, _⟩ => rfl | ⟨1, _⟩ => rfl | ⟨2, _⟩ => rfl
  have e32 : idx_main_v31 (idx_main_v32 (ix3 b n k)) = ix1 0 := funext fun a => by match a with | ⟨0, _⟩ => rfl
  rw [val_main_v38_apply, val_main_v36_apply, val_main_v37_apply, e37, val_main_v35_apply, e35, val_main_v34_apply,
    val_main_v33_apply, val_main_v32_apply, val_main_v31_apply, e32, val_main_v30_apply, val_main_v29_apply,
    val_main_cst_7_apply, pre1_apply x0 x1 x2 x5 x6 h1]
  unfold hid prelu
  exact add_assoc _ _ _

/-- The second layer's straight-through weight at (c, k). -/
theorem weight2_apply (x3 : FVec Ideal SW2 .f32) (c : Fin 768) (k : Fin 3072) :
    val_main_v55 (F := Ideal) x3 (ix2 c k)
      = (scale2 x3 (ix2 c 0) * signs2 x3 (ix2 c k) - clip (val_main_v49 (F := Ideal) x3 (ix2 c k)))
          + clip (val_main_v49 (F := Ideal) x3 (ix2 c k)) := by
  have e : idx_main_v51 (ix2 c k) = ix2 c 0 := funext fun a => by match a with | ⟨0, _⟩ => rfl | ⟨1, _⟩ => rfl
  rw [val_main_v55_apply, val_main_v54_apply, val_main_v53_apply, val_main_v52_apply, val_main_v51_apply, e,
    val_main_call3_v4_apply, val_main_call3_v3_apply, val_main_cst_13_apply, val_main_call3_v2_apply, val_main_call3_v1_apply,
    val_main_call3_v0_apply, val_main_cst_12_apply, scale2_eq, signs2_eq]
  rfl

/-- The second layer's straight-through activation at an index, over the hidden stage. -/
theorem act2_apply (x0 : FVec Ideal SX .f32) (x1 : FVec Ideal SW1 .f32) (x2 : FVec Ideal SB1 .f32)
    (x5 x6 x7 x8 : FVec Ideal S111 .f32) (x9 : FVec Ideal SOne .f32) (i : SH.Idx) :
    val_main_v59 (F := Ideal) x0 x1 x2 x5 x6 x7 x8 x9 i
      = (Ideal.sign (val_main_v38 (F := Ideal) x0 x1 x2 x5 x6 x7 x8 x9 i) - clip (val_main_v38 (F := Ideal) x0 x1 x2 x5 x6 x7 x8 x9 i))
          + clip (val_main_v38 (F := Ideal) x0 x1 x2 x5 x6 x7 x8 x9 i) := by
  rw [val_main_v59_apply, val_main_v58_apply, val_main_v57_apply, val_main_v56_apply, val_main_call4_v4_apply,
    val_main_call4_v3_apply, val_main_cst_15_apply, val_main_call4_v2_apply, val_main_call4_v1_apply, val_main_call4_v0_apply,
    val_main_cst_14_apply]
  rfl

/-- The second layer's contraction: the sum of the sign products over the hidden channels, times the row's scale. -/
theorem dot2_apply (x0 : FVec Ideal SX .f32) (x1 : FVec Ideal SW1 .f32) (x2 : FVec Ideal SB1 .f32) (x3 : FVec Ideal SW2 .f32)
    (x5 x6 x7 x8 : FVec Ideal S111 .f32) (x9 : FVec Ideal SOne .f32)
    (h1 : ∀ i, IsReal (scale1 x1 i)) (h2 : ∀ i, IsReal (scale2 x3 i)) (b : Fin 64) (n : Fin 197) (c : Fin 768) :
    val_main_v60 (F := Ideal) x0 x1 x2 x3 x5 x6 x7 x8 x9 (ix3 b n c)
      = (∑ k : Fin 3072, Ideal.sign (hid x0 x1 x2 x5 x6 x7 x8 x9 b n k) * signs2 x3 (ix2 c k)) * scale2 x3 (ix2 c 0) := by
  have el : ∀ k : Fin 3072, lidx_main_v60 (ix3 b n c) k = ix3 b n k := fun k =>
    funext fun a => by match a with | ⟨0, _⟩ => rfl | ⟨1, _⟩ => rfl | ⟨2, _⟩ => rfl
  have er : ∀ k : Fin 3072, ridx_main_v60 (ix3 b n c) k = ix2 c k := fun k =>
    funext fun a => by match a with | ⟨0, _⟩ => rfl | ⟨1, _⟩ => rfl
  rw [val_main_v60_apply]
  refine (Finset.sum_congr rfl fun k _ => ?_).trans
    (layer_sum (fun k : Fin 3072 => hid x0 x1 x2 x5 x6 x7 x8 x9 b n k) (fun k => clip (hid x0 x1 x2 x5 x6 x7 x8 x9 b n k))
      (fun k => clip (val_main_v49 (F := Ideal) x3 (ix2 c k))) (fun k => signs2 x3 (ix2 c k)) (scale2 x3 (ix2 c 0))
      (fun _ => isReal_clip' _) (fun _ => isReal_clip' _) (fun _ => isReal_signs2 _ _) (h2 _))
  rw [el k, er k, act2_apply, weight2_apply, hid_apply x0 x1 x2 x5 x6 x7 x8 x9 h1]

/-- The reference program's result is the specification. -/
theorem ref_eq (x0 : FVec Ideal SX .f32) (x1 : FVec Ideal SW1 .f32) (x2 : FVec Ideal SB1 .f32) (x3 : FVec Ideal SW2 .f32) (x4 : FVec Ideal SB2 .f32) (x5 x6 x7 x8 : FVec Ideal S111 .f32) (x9 : FVec Ideal SOne .f32)
    (h1 : ∀ i, IsReal (scale1 x1 i)) (h2 : ∀ i, IsReal (scale2 x3 i)) :
    Cert.ReferenceIdeal.Read.val_main_v63 (F := Ideal) x0 x1 x2 x3 x4 x5 x6 x7 x8 x9 = G x0 x1 x2 x3 x4 x5 x6 x7 x8 x9 := by
  funext i
  obtain ⟨b, n, c, rfl⟩ : ∃ (b : Fin 64) (n : Fin 197) (c : Fin 768), i = ix3 b n c := ⟨i 0, i 1, i 2, eq_ix3 i⟩
  have e : idx_main_v61 (idx_main_v62 (ix3 b n c)) = ix1 c := funext fun a => by match a with | ⟨0, _⟩ => rfl
  rw [val_main_v63_apply, val_main_v62_apply, val_main_v61_apply, e, dot2_apply x0 x1 x2 x3 x5 x6 x7 x8 x9 h1 h2]
  rfl

end Cert.RefValue

end
-- ==== Proof.FiniteWeights.lean ====
import proofs.«141185_j78091095375873_2_alg».proof.Defs
import proofs.«141185_j78091095375873_2_alg».proof.Proof.Gen.Pre_finite_inputs
import proofs.«141185_j78091095375873_2_alg».proof.Proof.Spec
import Idealize.ShloMosaic.Lib.ReduceAll

/-! # The weights' row scales are real numbers

The scale of a row is the mean of the absolute values of its entries: a finite sum of absolute values, started from
zero, divided by the row's length.  The absolute value of a real number is real, a finite sum of real numbers is
real, and a quotient by a nonzero real number is a product with its inverse.  So a matrix of real numbers has real row
scales.  The precondition says of every float input that all its entries are below +∞ in absolute value; an extended
real whose absolute value is below +∞ is a real number, so the two weight matrices are matrices of real numbers. -/

noncomputable section

namespace Cert.FiniteWeights

open Idealize.ShloMosaic Idealize.ShloMosaic.ValueIdx Idealize.ShloMosaic.TcCoe Idealize.SL.Sem Cert.RealValued Cert.Spec

/-! ## Real entries give real scales -/

/-- The absolute value of a real number is a real number. -/
theorem isReal_abs {x : EReal} (hx : IsReal x) : IsReal (max x (-x)) := by
  rcases max_choice x (-x) with h | h <;> rw [h]
  · exact hx
  · obtain ⟨r, rfl⟩ := hx
    exact ⟨-r, (EReal.coe_neg r).symm⟩

/-- A sum from zero over any part of a family of real numbers, divided by a nonzero real number, is real. -/
theorem isReal_sum_div {ι : Type*} (s : Finset ι) (f : ι → EReal) (hf : ∀ i, IsReal (f i)) {y : ℝ} (hy : y ≠ 0) :
    IsReal (Ideal.div ((0 : EReal) + ∑ i ∈ s, f i) (y : EReal)) := by
  rw [Ideal.div_coe hy]
  exact (isReal_zero.add (isReal_sum _ _ fun i _ => hf i)).mul (isReal_coe _)

/-- a matrix of real numbers has real row scales -/
theorem isReal_scale1 (w : FVec Ideal SW1 .f32) (hw : AllReal w) : ∀ i, IsReal (scale1 w i) := by
  intro i
  show IsReal (Ideal.div (Ideal.hostReduceAdd _ (Host.absf (F := Ideal) w) (Ideal.ofBits .f32 0x00000000#32) _)
    (Ideal.ofBits .f32 0x44400000#32))
  rw [ofBits_768, Ideal.ofBits_zero_f32]
  unfold Ideal.hostReduceAdd
  exact isReal_sum_div _ _ (fun k => isReal_abs (hw k)) (by norm_num)

theorem isReal_scale2 (w : FVec Ideal SW2 .f32) (hw : AllReal w) : ∀ i, IsReal (scale2 w i) := by
  intro i
  show IsReal (Ideal.div (Ideal.hostReduceAdd _ (Host.absf (F := Ideal) w) (Ideal.ofBits .f32 0x00000000#32) _)
    (Ideal.ofBits .f32 0x45400000#32))
  rw [ofBits_3072, Ideal.ofBits_zero_f32]
  unfold Ideal.hostReduceAdd
  exact isReal_sum_div _ _ (fun k => isReal_abs (hw k)) (by norm_num)

/-! ## The precondition gives real entries -/

/-- The shape of a scalar has one index. -/
instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- An array all of whose entries are below +∞ in absolute value is an array of real numbers. -/
theorem allReal_of_all {S : Shape} {axes : List (Fin S.rank)} (w : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf (F := Ideal) w)
          (broadcastInDim S ![] hb (constant (F := Ideal) Cert.Pre_finite_inputs.S_ .f32 0x7F800000#32))) init hr hu j = 1#1) :
    AllReal w := fun i =>
  isReal_of_abs_lt_inf (w i) (Host.reduce_andi_all _ init hr hu j e i)

/-- Under the precondition the two weight matrices are matrices of real numbers. -/
theorem weights_real (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := SW1) (m ((c.tc : Thread Cert.KernelIdeal.nD Cert.KernelIdeal.τ).loc Cert.KernelIdeal.main_arg1))
    ∧ AllReal (S := SW2) (m ((c.tc : Thread Cert.KernelIdeal.nD Cert.KernelIdeal.τ).loc Cert.KernelIdeal.main_arg3)) := by
  have e := congrFun (h c) ValueIdx.ix0
  dsimp only [Cert.Pre_finite_inputs.fn, Cert.Pre_finite_inputs.fn_part1, Cert.Pre_finite_inputs.fn_part2, andi] at e
  -- the predicate is a conjunction, nested to the left, of one "all entries" test per input
  have e43 := (IntOp.andi_eq_one.1 e).1
  have e38 := (IntOp.andi_eq_one.1 e43).1
  have e33 := (IntOp.andi_eq_one.1 e38).1
  have e28 := (IntOp.andi_eq_one.1 e33).1
  have e23 := (IntOp.andi_eq_one.1 e28).1
  have e18 := (IntOp.andi_eq_one.1 e23).1
  obtain ⟨e13, e17⟩ := IntOp.andi_eq_one.1 e18
  have e8 := (IntOp.andi_eq_one.1 e13).1
  have e7 := (IntOp.andi_eq_one.1 e8).2
  exact ⟨allReal_of_all _ _ _ _ _ _ e7, allReal_of_all _ _ _ _ _ _ e17⟩

/-- Under the precondition both layers' row scales are real numbers. -/
theorem scales_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (scale1 (m ((c.tc : Thread Cert.KernelIdeal.nD Cert.KernelIdeal.τ).loc Cert.KernelIdeal.main_arg1)) i))
    ∧ (∀ i, IsReal (scale2 (m ((c.tc : Thread Cert.KernelIdeal.nD Cert.KernelIdeal.τ).loc Cert.KernelIdeal.main_arg3)) i)) :=
  ⟨isReal_scale1 _ (weights_real m h c).1, isReal_scale2 _ (weights_real m h c).2⟩

end Cert.FiniteWeights

end
-- ==== Proof.lean ====
/-
  The certificate of a fused two-layer perceptron with one-bit weights and one-bit activations
  (x : f32[64,197,768], W₁ : f32[3072,768], W₂ : f32[768,3072]) against its jnp reference.

  Both programs compute, for every token t and channel c,

      h[t,k]   = prelu_a( Σ_j sign(x[t,j] + s₅) · (sc(W₁)[k] · sg(W₁)[k,j]) + b₁[k] + s₆ ) + s₇ + s₈
      out[t,c] = Σ_k sign(h[t,k]) · (sc(W₂)[c] · sg(W₂)[c,k]) + b₂[c]

  with sc(W) the row means of |W| and sg(W) the signs of the row-centred W.  The kernel pulls the row scale out of
  each contraction and pre-adds the shifts (b₁ + s₆, s₇ + s₈); the reference writes each one-bit quantity in its
  straight-through form (q − clip) + clip.  On the extended reals the two agree because a clipped value is always a
  real number (so (q − clip) + clip = q), addition is associative, and the row scales are real numbers — the one
  place the precondition (finite inputs) is used: distributing a real factor over a finite sum of reals.

  The kernel runs on fifty tiles of 256 token rows; the last tile hangs over the 12608-row array, and the rows
  past its end (computed from words nothing names) are never written back: a row of the result depends on the same
  row of the input only (Proof/RunIdeal.lean).  The word-level program's frame needs nothing of the values
  (Proof/FrameBits.lean).  The two rewrites of the idealization are the sign-bit rule's statement at the two shapes.
-/
import proofs.«141185_j78091095375873_2_alg».proof.Defs
import proofs.«141185_j78091095375873_2_alg».proof.Proof.Gen.Kernel
import proofs.«141185_j78091095375873_2_alg».proof.Proof.Gen.KernelIdeal
import proofs.«141185_j78091095375873_2_alg».proof.Proof.Gen.ReferenceIdeal
import proofs.«141185_j78091095375873_2_alg».proof.Proof.Gen.ReferenceIdeal.Run
import proofs.«141185_j78091095375873_2_alg».proof.Proof.Gen.ReferenceIdeal.Read
import proofs.«141185_j78091095375873_2_alg».proof.Proof.Gen.Pre_finite_inputs
import proofs.«141185_j78091095375873_2_alg».proof.Proof.FrameBits
import proofs.«141185_j78091095375873_2_alg».proof.Proof.KernelValue
import proofs.«141185_j78091095375873_2_alg».proof.Proof.HostSide
import proofs.«141185_j78091095375873_2_alg».proof.Proof.RefValue
import proofs.«141185_j78091095375873_2_alg».proof.Proof.FiniteWeights
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Body.frame (F := Bits) m ρ

/-- So does the idealized program. -/
theorem frame_ki : Cert.frame_KernelIdeal := fun m ρ _ => Cert.KernelIdeal.Run.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewritten sites: 1.0 carrying a value's sign bit is −1 below zero and 1 otherwise. -/
theorem preserves : Cert.preserves_Kernel_KernelIdeal :=
  ⟨IdealRules.sign_bit.statement Cert.KernelIdeal.S256x768 .f32, IdealRules.sign_bit.statement Cert.KernelIdeal.S256x3072 .f32⟩

/-- Both idealized programs end with the specification `Cert.Spec.G` of the arguments in their result buffer. -/
theorem algebraic : Cert.algebraic_KernelIdeal_ReferenceIdeal := by
  intro m ρ m' ρ' hpre hagree
  refine ⟨fun c => shapeCast Cert.KernelIdeal.S64x197x768 (Cert.KernelIdeal.Run.Gflat m c) Cert.KernelIdeal.Facts₀.shapeCasts_S12608x768_S64x197x768,
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.FiniteWeights.scales_real m hpre c
  rw [Cert.ReferenceIdeal.Read.val_main_v63_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  exact (Cert.RefValue.ref_eq _ _ _ _ _ _ _ _ _ _ h1 h2).trans (Cert.KernelIdeal.Host.gflat_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
